-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S100000x512 : Shape := ⟨2, ![100000, 512]⟩
abbrev S512 : Shape := ⟨1, ![512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_

variable [Facts]

def fn {F : FTy → Type} [FloatOps F] (main_arg0 : FVec F S512x512 .f32) (main_arg1 : FVec F S100000x512 .f32) (main_arg2 : IVec S512 32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S100000x512 .f32 := Host.absf main_arg1
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  main_v8
-- ==== Kernel.lean ====
abbrev S512x512 : Shape := ⟨2, ![512, 512]⟩
abbrev S100000x512 : Shape := ⟨2, ![100000, 512]⟩
abbrev S512 : Shape := ⟨1, ![512]⟩
abbrev S_ : Shape := ⟨0, ![]⟩
abbrev S512x1 : Shape := ⟨2, ![512, 1]⟩
abbrev S512x100000 : Shape := ⟨2, ![512, 100000]⟩
abbrev S2048x512 : Shape := ⟨2, ![2048, 512]⟩
abbrev S512x2048 : Shape := ⟨2, ![512, 2048]⟩
abbrev S2048 : Shape := ⟨1, ![2048]⟩
abbrev S2048x1 : Shape := ⟨2, ![2048, 1]⟩

abbrev nBuf : Space → Nat
  | .hbm => 16
  | .vmem => 6
  | .smem => 0
  | _ => 0

abbrev bufTy : (tb : Table) → Fin (tcTables nBuf tb) → BufTy
  | .hbm, ⟨0, _⟩ => ⟨S512x512, .f32⟩
  | .hbm, ⟨1, _⟩ => ⟨S100000x512, .f32⟩
  | .hbm, ⟨2, _⟩ => ⟨S512, .i32⟩
  | .hbm, ⟨3, _⟩ => ⟨S512x512, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S512x512, .f32⟩
  | .hbm, ⟨12, _⟩ => ⟨S512x512, .f32⟩
  | .hbm, ⟨13, _⟩ => ⟨S512x512, .bf16⟩
  | .hbm, ⟨14, _⟩ => ⟨S512x1, .i32⟩
  | .hbm, ⟨15, _⟩ => ⟨S512x100000, .f32⟩
  | .local _ .vmem, ⟨0, _⟩ => ⟨S512x512, .bf16⟩
  | .local _ .vmem, ⟨1, _⟩ => ⟨S2048x512, .f32⟩
  | .local _ .vmem, ⟨2, _⟩ => ⟨S2048x512, .f32⟩
  | .local _ .vmem, ⟨3, _⟩ => ⟨S512x1, .i32⟩
  | .local _ .vmem, ⟨4, _⟩ => ⟨S512x2048, .f32⟩
  | .local _ .vmem, ⟨5, _⟩ => ⟨S512x2048, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  bitsLt_bf16_f32 : FTy.bits .bf16 < FTy.bits .f32
  shapeCasts_S512_S512x1 : S512.ShapeCasts S512x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  broadcasts_S2048x1_S2048x512 : S2048x1.Broadcasts S2048x512
  transposes_S2048x512_p1_0_S512x2048 : S2048x512.Transposes [1, 0] S512x2048
  iota_S512x2048_d1_w32 : S512x2048.Iotas .tc 32 [1]
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x2048 : S512x1.Broadcasts S512x2048
  inb_S512x2048_S512x2048_0_0 : ∀ a, (![0, 0] : Fin 2 → Nat) a + S512x2048.size a ≤ S512x2048.size a
  h_S512x2048 : 0 < S512x2048.numel
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .bf16 = 32 ∨ (Rect.block (s := S512x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x512.size a < S100000x512.size a
  hwx0_1 : ∀ i : grid0.Coords, EltTy.bits .f32 = 32 ∨ (Rect.unit (s := S100000x512) (fun a => cc0_transform_1 i a * S2048x512.size a) (fun a => (Pipeline.Clip.of (cc0_transform_1 i a) (S2048x512.size a) (S100000x512.size a)).extent (S2048x512.size a)) fun a => Pipeline.Clip.inb (Pipeline.Clip.ok_of (hstart0_1 i a))).WholeWords (EltTy.packing .f32)
  hwxs0_1 : ∀ i : grid0.Coords, EltTy.bits .f32 = 32 ∨ (Rect.unit (s := S2048x512) (fun _ => 0) (fun a => (Pipeline.Clip.of (cc0_transform_1 i a) (S2048x512.size a) (S100000x512.size a)).extent (S2048x512.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .i32 = 32 ∨ (Rect.block (s := S512x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S512x2048.size a < S512x100000.size a
  hwx0_3 : ∀ i : grid0.Coords, EltTy.bits .f32 = 32 ∨ (Rect.unit (s := S512x100000) (fun a => cc0_transform_3 i a * S512x2048.size a) (fun a => (Pipeline.Clip.of (cc0_transform_3 i a) (S512x2048.size a) (S512x100000.size a)).extent (S512x2048.size a)) fun a => Pipeline.Clip.inb (Pipeline.Clip.ok_of (hstart0_3 i a))).WholeWords (EltTy.packing .f32)
  hwxs0_3 : ∀ i : grid0.Coords, EltTy.bits .f32 = 32 ∨ (Rect.unit (s := S512x2048) (fun _ => 0) (fun a => (Pipeline.Clip.of (cc0_transform_3 i a) (S512x2048.size a) (S512x100000.size a)).extent (S512x2048.size a)) fun a => (Nat.zero_add _).trans_le (Pipeline.Clip.extent_le (Pipeline.Clip.ok_of (hstart0_3 i a)))).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_v8) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S2048x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v9) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v10) S512x2048.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x512 : Shape := ⟨2, ![512, 512]⟩
abbrev S100000x512 : Shape := ⟨2, ![100000, 512]⟩
abbrev S512 : Shape := ⟨1, ![512]⟩
abbrev S_ : Shape := ⟨0, ![]⟩
abbrev S512x1 : Shape := ⟨2, ![512, 1]⟩
abbrev S100000 : Shape := ⟨1, ![100000]⟩
abbrev S100000x1 : Shape := ⟨2, ![100000, 1]⟩
abbrev S512x100000 : Shape := ⟨2, ![512, 100000]⟩
abbrev S1x100000 : Shape := ⟨2, ![1, 100000]⟩

abbrev nBuf : Space → Nat
  | .hbm => 59
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S100000x512, .f32⟩
  | .hbm, ⟨2, _⟩ => ⟨S512, .i32⟩
  | .hbm, ⟨3, _⟩ => ⟨S512x512, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S512x512, .f32⟩
  | .hbm, ⟨12, _⟩ => ⟨S512x512, .f32⟩
  | .hbm, ⟨13, _⟩ => ⟨S100000x512, .f32⟩
  | .hbm, ⟨14, _⟩ => ⟨S_, .f32⟩
  | .hbm, ⟨15, _⟩ => ⟨S100000, .f32⟩
  | .hbm, ⟨16, _⟩ => ⟨S100000x1, .f32⟩
  | .hbm, ⟨17, _⟩ => ⟨S100000x1, .f32⟩
  | .hbm, ⟨18, _⟩ => ⟨S_, .f32⟩
  | .hbm, ⟨19, _⟩ => ⟨S100000x1, .f32⟩
  | .hbm, ⟨20, _⟩ => ⟨S100000x1, .f32⟩
  | .hbm, ⟨21, _⟩ => ⟨S100000x512, .f32⟩
  | .hbm, ⟨22, _⟩ => ⟨S100000x512, .f32⟩
  | .hbm, ⟨23, _⟩ => ⟨S512x100000, .f32⟩
  | .hbm, ⟨24, _⟩ => ⟨S512x100000, .f32⟩
  | .hbm, ⟨25, _⟩ => ⟨S512x100000, .f32⟩
  | .hbm, ⟨26, _⟩ => ⟨S_, .f32⟩
  | .hbm, ⟨27, _⟩ => ⟨S512x100000, .f32⟩
  | .hbm, ⟨28, _⟩ => ⟨S512x100000, .f32⟩
  | .hbm, ⟨29, _⟩ => ⟨S512x100000, .f32⟩
  | .hbm, ⟨30, _⟩ => ⟨S_, .f32⟩
  | .hbm, ⟨31, _⟩ => ⟨S512x100000, .f32⟩
  | .hbm, ⟨32, _⟩ => ⟨S512x100000, .f32⟩
  | .hbm, ⟨33, _⟩ => ⟨S_, .f32⟩
  | .hbm, ⟨34, _⟩ => ⟨S512x100000, .f32⟩
  | .hbm, ⟨35, _⟩ => ⟨S512x100000, .f32⟩
  | .hbm, ⟨36, _⟩ => ⟨S512x100000, .f32⟩
  | .hbm, ⟨37, _⟩ => ⟨S_, .f32⟩
  | .hbm, ⟨38, _⟩ => ⟨S512x100000, .f32⟩
  | .hbm, ⟨39, _⟩ => ⟨S512x100000, .i1⟩
  | .hbm, ⟨40, _⟩ => ⟨S_, .f32⟩
  | .hbm, ⟨41, _⟩ => ⟨S512x100000, .f32⟩
  | .hbm, ⟨42, _⟩ => ⟨S512x100000, .f32⟩
  | .hbm, ⟨43, _⟩ => ⟨S512x100000, .f32⟩
  | .hbm, ⟨44, _⟩ => ⟨S512x1, .i32⟩
  | .hbm, ⟨45, _⟩ => ⟨S1x100000, .i32⟩
  | .hbm, ⟨46, _⟩ => ⟨S512x100000, .i32⟩
  | .hbm, ⟨47, _⟩ => ⟨S512x100000, .i32⟩
  | .hbm, ⟨48, _⟩ => ⟨S512x100000, .i1⟩
  | .hbm, ⟨49, _⟩ => ⟨S512x100000, .f32⟩
  | .hbm, ⟨50, _⟩ => ⟨S512x100000, .f32⟩
  | .hbm, ⟨51, _⟩ => ⟨S_, .f32⟩
  | .hbm, ⟨52, _⟩ => ⟨S512x100000, .f32⟩
  | .hbm, ⟨53, _⟩ => ⟨S512x100000, .f32⟩
  | .hbm, ⟨54, _⟩ => ⟨S512x100000, .f32⟩
  | .hbm, ⟨55, _⟩ => ⟨S512x100000, .f32⟩
  | .hbm, ⟨56, _⟩ => ⟨S_, .f32⟩
  | .hbm, ⟨57, _⟩ => ⟨S512x100000, .f32⟩
  | .hbm, ⟨58, _⟩ => ⟨S512x100000, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩

abbrev nD : Nat := 1
abbrev τ : Topo := Topo.v7x

variable {F : FTy → Type} [FloatOps F]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  reducesTo_S100000x512_S100000_d1 : S100000x512.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x512_0_1 : S100000x1.BroadcastsInDim S100000x512 (![0, 1] : Fin 2 → Fin S100000x512.rank)
  transposes_S100000x512_S512x100000_1_0 : S100000x512.Transposes [1, 0] S512x100000
  bcast_S_S512x100000 : S_.BroadcastsInDim S512x100000 (![] : Fin 0 → Fin S512x100000.rank)
  bcast_S512x1_S512x100000_0_1 : S512x1.BroadcastsInDim S512x100000 (![0, 1] : Fin 2 → Fin S512x100000.rank)
  bcast_S1x100000_S512x100000_0_1 : S1x100000.BroadcastsInDim S512x100000 (![0, 1] : Fin 2 → Fin S512x100000.rank)
  dot_S512x512_S512x100000_S512x100000_1_0_0_1_n_n_wf : DotDims.WF S512x512 S512x100000 S512x100000 [1] [0] [0] [1] [] []

variable [Facts₀]

def dot_S512x512_S512x100000_S512x100000_1_0_0_1_n_n : DotDims S512x512 S512x100000 S512x100000 where
  lhsContracting := [1]
  rhsContracting := [0]
  lhsNonContracting := [0]
  rhsNonContracting := [1]
  lhsBatch := []
  rhsBatch := []
  wf := dot_S512x512_S512x100000_S512x100000_1_0_0_1_n_n_wf

class Facts : Prop extends Facts₀ where

variable [Facts]
-- ==== Proof.KernelBody.lean ====
/-
  The frame of the margin-head kernel, at any float instance.

  One grid point of the kernel reads three staging buffers whole — the normalized input (512×512), one block of
  2048 weight rows (2048×512) and the labels (512×1) — and overwrites the result's staging buffer (512×2048) whole
  with one pure function of the three, `outBlk`. The input and the labels are fetched once and stay in place; a
  weight block is fetched at every point, and the last of the 49 blocks overhangs the 100000-row array by 352 rows,
  so its buffer's tail holds words nothing names; the body reads them and leaves them where they are. For the frame —
  the run ends, nothing faults, the argument arrays are unchanged — what the result's buffer holds is not needed, so
  that window is stated at no contents at all.
-/
import proofs.«107556_j50869592654076_2_alg».proof.Proof.Gen.Kernel.Frame
import proofs.«107556_j50869592654076_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each buffer whole -/

abbrev rX : Rect S512x512 := Rect.unit (s := S512x512) ![0, 0] S512x512.size inb_S512x512_S512x512_0_0
abbrev rW : Rect S2048x512 := Rect.unit (s := S2048x512) ![0, 0] S2048x512.size inb_S2048x512_S2048x512_0_0
abbrev rL : Rect S512x1 := Rect.unit (s := S512x1) ![0, 0] S512x1.size inb_S512x1_S512x1_0_0
abbrev rO : Rect S512x2048 := Rect.unit (s := S512x2048) ![0, 0] S512x2048.size inb_S512x2048_S512x2048_0_0

/-- What the body leaves in the result's staging buffer at grid coordinates `i`: its one store, of the scaled
    selection computed from the three buffers it loaded. -/
def outBlk (i : grid0.Coords) (x0 : Vec F S512x512 .bf16) (x1 : Vec F S2048x512 .f32) (x2 : Vec F S512x1 .i32) : Vec F S512x2048 .f32 :=
  View.canon [⟨rO, k0_pay1 (k0_pay2 i (View.ld x0 rX) (View.ld x1 rW) (View.ld x2 rL)) (Scalar.ofBits .f32 0x41F00000#32)⟩]

/-- The one store covers the buffer. -/
theorem coverO (p0 : Vec F S512x2048 .f32) (y : S512x2048.Idx) :
    ∃ pc ∈ ([⟨rO, p0⟩] : List (View.Piece (Elt F) S512x2048 .f32)), y ∈ pc.1.set :=
  View.cover_of_tiled [⟨rO, p0⟩] S512x2048.size (by rfl) y

/-! ## The body's triple -/

set_option maxHeartbeats 1000000 in
/-- The body on whole staging buffers, the three inputs' at contents `x0 x1 x2` and the result's at anything, runs
    to the continuation holding the inputs' as they were and the result's at `outBlk`. -/
theorem sound_kernel (c : Dev nD) (E : Set ℕ) (i : grid0.Coords)
    (arg1 : Memref sig .tc .vmem S512x512 .bf16) (harg1 : arg1.IsWhole) (arg2 : Memref sig .tc .vmem S2048x512 .f32) (harg2 : arg2.IsWhole)
    (arg3 : Memref sig .tc .vmem S512x1 .i32) (harg3 : arg3.IsWhole) (arg4 : Memref sig .tc .vmem S512x2048 .f32) (harg4 : arg4.IsWhole)
    (x0 : Vec F S512x512 .bf16) (x1 : Vec F S2048x512 .f32) (x2 : Vec F S512x1 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlk i x0 x1 x2)) -∗ K ⟨⟩))
      ⊢ wp frame (wpE (defs₀ (F := F)) Variants.none c none) E (cc0__arcfc_kernel i arg1 harg1 arg2 harg2 arg3 harg3 arg4 harg4) K := by
  simp only [cc0__arcfc_kernel_eq_skeleton]; unfold cc0__arcfc_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverO _)

/-! ## The proof data, the result's window forgotten -/

/-- The result's window (3) is stated at no contents. -/
def forgets0 : Fin 4 → Bool := fun w => w.val == 3

/-- A weight block filled out to the buffer's 2048 rows: the block's rows inside the array, and past the array's
    end a word of the proof's choosing that nothing depends on. -/
def wfill (c : Dev nD) (t : Fin cfg0.N) : (cfg0.win 1).block.Idx → Elt F (cfg0.win 1).elt :=
  (cfg0.win 1).fill (cfg0.grid.coords t) (fun _ => Scalar.ofBits .f32 0#32) (iblk m c 1 t)

/-- The proof data on core `c`: the arrays as the region finds them; after the body the input and the labels at
    their blocks, the weight buffer at its block filled out, the result's unnamed; the class's invariant; nothing
    owed; full shares. -/
def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wfill m c t
    | ⟨2, _⟩ => iblk m c 2 t
    | ⟨3, h⟩ => Pipeline.Dat.unnamed (cfg := cfg0) ⟨3, h⟩ t
  Φ _ := Pipeline.ΦA spec0 c
  q _ := fullShare
  owed _ := 0

theorem A_eqF (c : Dev nD) (w : Fin cfg0.W) : (datsF m 0 c).A w = V m c (Pipeline.arrRef spec0 w) := by
  dsimp only [datsF]

theorem afterF_0 (c : Dev nD) (t : Fin cfg0.N) : (datsF m 0 c).after 0 t = iblk m c 0 t := by dsimp only [datsF]
theorem afterF_1 (c : Dev nD) (t : Fin cfg0.N) : (datsF m 0 c).after 1 t = wfill m c t := by dsimp only [datsF]
theorem afterF_2 (c : Dev nD) (t : Fin cfg0.N) : (datsF m 0 c).after 2 t = iblk m c 2 t := by dsimp only [datsF]

/-- The input's and the labels' buffers hold their blocks at every point. -/
theorem beforeF_0 (c : Dev nD) (t : Fin cfg0.N) (d) : (datsF m 0 c).before 0 t d = iblk m c 0 t :=
  before0_0_of m (datsF m 0 c) (A_eqF m c 0) (afterF_0 m c) t d
theorem beforeF_2 (c : Dev nD) (t : Fin cfg0.N) (d) : (datsF m 0 c).before 2 t d = iblk m c 2 t :=
  before0_2_of m (datsF m 0 c) (A_eqF m c 2) (afterF_2 m c) t d
/-- The weight's buffer, fetched at every point, holds its block on the rows inside the array and `d` past them. -/
theorem beforeF_1 (c : Dev nD) (t : Fin cfg0.N) (d) :
    (datsF m 0 c).before 1 t d = (cfg0.win 1).fill (cfg0.grid.coords t) d (iblk m c 1 t) := by
  unfold Dat.before; rw [if_pos (fetch0_1 t)]
  unfold Dat.fetched Dat.blockOf iblk; rw [A_eqF]

/-! ## The body obligation at a generic point -/

def bodyPreF (c : Dev nD) (t : Fin cfg0.N) : sProp 𝕄 :=
  iprop((datsF m 0 c).Φ t.castSucc ∗ (datsF m 0 c).owesAt () t.castSucc
    ∗ (∃ d, owns (c : Thread nD τ) (st0_0 t) fullShare ((datsF m 0 c).before 0 t d))
    ∗ (∃ d, owns (c : Thread nD τ) (st0_1 t) fullShare ((datsF m 0 c).before 1 t d))
    ∗ (∃ d, owns (c : Thread nD τ) (st0_2 t) fullShare ((datsF m 0 c).before 2 t d))
    ∗ (∃ X, owns (c : Thread nD τ) (st0_3 t) fullShare X))

def bodyPostF (c : Dev nD) (t : Fin cfg0.N) : sProp 𝕄 :=
  iprop((datsF m 0 c).Φ t.succ ∗ (datsF m 0 c).owesAt () t.succ
    ∗ owns (c : Thread nD τ) (st0_0 t) fullShare ((datsF m 0 c).after 0 t)
    ∗ (∃ d, owns (c : Thread nD τ) (st0_1 t) fullShare
        ((cfg0.win 1).fill (cfg0.grid.coords t) d ((cfg0.win 1).cut (cfg0.grid.coords t) ((datsF m 0 c).after 1 t))))
    ∗ owns (c : Thread nD τ) (st0_2 t) fullShare ((datsF m 0 c).after 2 t)
    ∗ (∃ X, owns (c : Thread nD τ) (st0_3 t) fullShare X))

/-- The body at any point: the buffers hold what `beforeF_W` say, the triple applies, the weight's buffer is handed
    back as it was found (its rows inside the array are the block's). -/
theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  simp only [beforeF_0, beforeF_1, beforeF_2]
  rw [show (datsF m 0 c).Φ t.succ = (datsF m 0 c).Φ t.castSucc from rfl,
    show (datsF m 0 c).owesAt () t.succ = (datsF m 0 c).owesAt () t.castSucc from rfl,
    afterF_0, afterF_1, afterF_2]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t)
    ((cfg0.win 1).fill (cfg0.grid.coords t) d1 (iblk m c 1 t)) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1
    unfold wfill
    rw [(cfg0.win 1).cut_fill]
    iexact H1
  isplitl [H2]; · iexact H2
  iexists _; iexact H3

/-- The library's body obligation at every point, the result's window forgotten. -/
theorem body_obligationF (c : Dev nD) :
    Pipeline.BodyObligationLoose (datsF (F := F) m 0 c) (defs₀ (F := F)) Variants.none () Set.univ forgets0 := fun t => by
  rw [bigSep_W0, bigSep_W0]
  exact sound_bodyF m c t

/-! ## The run and the frame -/

set_option backward.isDefEq.respectTransparency.types false in
/-- Every weakly fair execution of @main terminates; every argument array of the pipeline ends unchanged and every
    other unscoped buffer as the region found it (nothing is said of the result). -/
theorem run_mainF : θ_run defs (onTc (τ := τ) (main (F := F))) (s₀ m ρ)
    (Pipeline.RDat.FramePost (cfgs 0) (fun c => (datsF m 0 c).toRForget forgets0) (V m)) :=
  Pipeline.RDat.θ_run_frame cfgs (0 : Fin 1) launch0 defs₀ Variants.none (fun c => (datsF m 0 c).toRForget forgets0) m ρ main
    (hbody := fun c => (body_obligationF m c).toRForget) (hshare := fun c => ((datsF m 0 c).toRForget forgets0).share_full fun _ => rfl)
    (howed := fun _ _ => rfl) (V := V m) (hmain := hmain m Variants.none) (hA := A_eqF m) (hΦ := fun _ _ => rfl)

/-- The frame: the run's post read at the three argument arrays — the weight, which a window stages, by the
    library's statement that an input array is never written; the other two bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (V_main_arg0 m c),
     (Eq.mp (congrFun (((datsF m 0 c).toRForget forgets0).ArrAt_in 1 rfl _) _) ((h c).1 1)).trans ((A_eqF m c 1).trans (V_main_arg1 m c)),
     ((h c).2 main_arg2 (Pipeline.mem_restRefs_of main_arg2 (by decide) (by decide))).trans (V_main_arg2 m c)⟩) (run_mainF m ρ)

end Cert.Kernel.Body

end
-- ==== Proof.IdealBody.lean ====
/-
  The frame of the margin-head kernel, at any float instance.

  One grid point of the kernel reads three staging buffers whole — the normalized input (512×512), one block of
  2048 weight rows (2048×512) and the labels (512×1) — and overwrites the result's staging buffer (512×2048) whole
  with one pure function of the three, `outBlk`. The input and the labels are fetched once and stay in place; a
  weight block is fetched at every point, and the last of the 49 blocks overhangs the 100000-row array by 352 rows,
  so its buffer's tail holds words nothing names; the body reads them and leaves them where they are. For the frame —
  the run ends, nothing faults, the argument arrays are unchanged — what the result's buffer holds is not needed, so
  that window is stated at no contents at all.
-/
import proofs.«107556_j50869592654076_2_alg».proof.Proof.Gen.KernelIdeal.Frame
import proofs.«107556_j50869592654076_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each buffer whole -/

abbrev rX : Rect S512x512 := Rect.unit (s := S512x512) ![0, 0] S512x512.size inb_S512x512_S512x512_0_0
abbrev rW : Rect S2048x512 := Rect.unit (s := S2048x512) ![0, 0] S2048x512.size inb_S2048x512_S2048x512_0_0
abbrev rL : Rect S512x1 := Rect.unit (s := S512x1) ![0, 0] S512x1.size inb_S512x1_S512x1_0_0
abbrev rO : Rect S512x2048 := Rect.unit (s := S512x2048) ![0, 0] S512x2048.size inb_S512x2048_S512x2048_0_0

/-- What the body leaves in the result's staging buffer at grid coordinates `i`: its one store, of the scaled
    selection computed from the three buffers it loaded. -/
def outBlk (i : grid0.Coords) (x0 : Vec F S512x512 .bf16) (x1 : Vec F S2048x512 .f32) (x2 : Vec F S512x1 .i32) : Vec F S512x2048 .f32 :=
  View.canon [⟨rO, k0_pay1 (k0_pay2 i (View.ld x0 rX) (View.ld x1 rW) (View.ld x2 rL)) (Scalar.ofBits .f32 0x41F00000#32)⟩]

/-- The one store covers the buffer. -/
theorem coverO (p0 : Vec F S512x2048 .f32) (y : S512x2048.Idx) :
    ∃ pc ∈ ([⟨rO, p0⟩] : List (View.Piece (Elt F) S512x2048 .f32)), y ∈ pc.1.set :=
  View.cover_of_tiled [⟨rO, p0⟩] S512x2048.size (by rfl) y

/-! ## The body's triple -/

set_option maxHeartbeats 1000000 in
/-- The body on whole staging buffers, the three inputs' at contents `x0 x1 x2` and the result's at anything, runs
    to the continuation holding the inputs' as they were and the result's at `outBlk`. -/
theorem sound_kernel (c : Dev nD) (E : Set ℕ) (i : grid0.Coords)
    (arg1 : Memref sig .tc .vmem S512x512 .bf16) (harg1 : arg1.IsWhole) (arg2 : Memref sig .tc .vmem S2048x512 .f32) (harg2 : arg2.IsWhole)
    (arg3 : Memref sig .tc .vmem S512x1 .i32) (harg3 : arg3.IsWhole) (arg4 : Memref sig .tc .vmem S512x2048 .f32) (harg4 : arg4.IsWhole)
    (x0 : Vec F S512x512 .bf16) (x1 : Vec F S2048x512 .f32) (x2 : Vec F S512x1 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlk i x0 x1 x2)) -∗ K ⟨⟩))
      ⊢ wp frame (wpE (defs₀ (F := F)) Variants.none c none) E (cc0__arcfc_kernel i arg1 harg1 arg2 harg2 arg3 harg3 arg4 harg4) K := by
  simp only [cc0__arcfc_kernel_eq_skeleton]; unfold cc0__arcfc_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverO _)

/-! ## The proof data, the result's window forgotten -/

/-- The result's window (3) is stated at no contents. -/
def forgets0 : Fin 4 → Bool := fun w => w.val == 3

/-- A weight block filled out to the buffer's 2048 rows: the block's rows inside the array, and past the array's
    end a word of the proof's choosing that nothing depends on. -/
def wfill (c : Dev nD) (t : Fin cfg0.N) : (cfg0.win 1).block.Idx → Elt F (cfg0.win 1).elt :=
  (cfg0.win 1).fill (cfg0.grid.coords t) (fun _ => Scalar.ofBits .f32 0#32) (iblk m c 1 t)

/-- The proof data on core `c`: the arrays as the region finds them; after the body the input and the labels at
    their blocks, the weight buffer at its block filled out, the result's unnamed; the class's invariant; nothing
    owed; full shares. -/
def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wfill m c t
    | ⟨2, _⟩ => iblk m c 2 t
    | ⟨3, h⟩ => Pipeline.Dat.unnamed (cfg := cfg0) ⟨3, h⟩ t
  Φ _ := Pipeline.ΦA spec0 c
  q _ := fullShare
  owed _ := 0

theorem A_eqF (c : Dev nD) (w : Fin cfg0.W) : (datsF m 0 c).A w = V m c (Pipeline.arrRef spec0 w) := by
  dsimp only [datsF]

theorem afterF_0 (c : Dev nD) (t : Fin cfg0.N) : (datsF m 0 c).after 0 t = iblk m c 0 t := by dsimp only [datsF]
theorem afterF_1 (c : Dev nD) (t : Fin cfg0.N) : (datsF m 0 c).after 1 t = wfill m c t := by dsimp only [datsF]
theorem afterF_2 (c : Dev nD) (t : Fin cfg0.N) : (datsF m 0 c).after 2 t = iblk m c 2 t := by dsimp only [datsF]

/-- The input's and the labels' buffers hold their blocks at every point. -/
theorem beforeF_0 (c : Dev nD) (t : Fin cfg0.N) (d) : (datsF m 0 c).before 0 t d = iblk m c 0 t :=
  before0_0_of m (datsF m 0 c) (A_eqF m c 0) (afterF_0 m c) t d
theorem beforeF_2 (c : Dev nD) (t : Fin cfg0.N) (d) : (datsF m 0 c).before 2 t d = iblk m c 2 t :=
  before0_2_of m (datsF m 0 c) (A_eqF m c 2) (afterF_2 m c) t d
/-- The weight's buffer, fetched at every point, holds its block on the rows inside the array and `d` past them. -/
theorem beforeF_1 (c : Dev nD) (t : Fin cfg0.N) (d) :
    (datsF m 0 c).before 1 t d = (cfg0.win 1).fill (cfg0.grid.coords t) d (iblk m c 1 t) := by
  unfold Dat.before; rw [if_pos (fetch0_1 t)]
  unfold Dat.fetched Dat.blockOf iblk; rw [A_eqF]

/-! ## The body obligation at a generic point -/

def bodyPreF (c : Dev nD) (t : Fin cfg0.N) : sProp 𝕄 :=
  iprop((datsF m 0 c).Φ t.castSucc ∗ (datsF m 0 c).owesAt () t.castSucc
    ∗ (∃ d, owns (c : Thread nD τ) (st0_0 t) fullShare ((datsF m 0 c).before 0 t d))
    ∗ (∃ d, owns (c : Thread nD τ) (st0_1 t) fullShare ((datsF m 0 c).before 1 t d))
    ∗ (∃ d, owns (c : Thread nD τ) (st0_2 t) fullShare ((datsF m 0 c).before 2 t d))
    ∗ (∃ X, owns (c : Thread nD τ) (st0_3 t) fullShare X))

def bodyPostF (c : Dev nD) (t : Fin cfg0.N) : sProp 𝕄 :=
  iprop((datsF m 0 c).Φ t.succ ∗ (datsF m 0 c).owesAt () t.succ
    ∗ owns (c : Thread nD τ) (st0_0 t) fullShare ((datsF m 0 c).after 0 t)
    ∗ (∃ d, owns (c : Thread nD τ) (st0_1 t) fullShare
        ((cfg0.win 1).fill (cfg0.grid.coords t) d ((cfg0.win 1).cut (cfg0.grid.coords t) ((datsF m 0 c).after 1 t))))
    ∗ owns (c : Thread nD τ) (st0_2 t) fullShare ((datsF m 0 c).after 2 t)
    ∗ (∃ X, owns (c : Thread nD τ) (st0_3 t) fullShare X))

/-- The body at any point: the buffers hold what `beforeF_W` say, the triple applies, the weight's buffer is handed
    back as it was found (its rows inside the array are the block's). -/
theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  simp only [beforeF_0, beforeF_1, beforeF_2]
  rw [show (datsF m 0 c).Φ t.succ = (datsF m 0 c).Φ t.castSucc from rfl,
    show (datsF m 0 c).owesAt () t.succ = (datsF m 0 c).owesAt () t.castSucc from rfl,
    afterF_0, afterF_1, afterF_2]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t)
    ((cfg0.win 1).fill (cfg0.grid.coords t) d1 (iblk m c 1 t)) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1
    unfold wfill
    rw [(cfg0.win 1).cut_fill]
    iexact H1
  isplitl [H2]; · iexact H2
  iexists _; iexact H3

/-- The library's body obligation at every point, the result's window forgotten. -/
theorem body_obligationF (c : Dev nD) :
    Pipeline.BodyObligationLoose (datsF (F := F) m 0 c) (defs₀ (F := F)) Variants.none () Set.univ forgets0 := fun t => by
  rw [bigSep_W0, bigSep_W0]
  exact sound_bodyF m c t

/-! ## The run and the frame -/

set_option backward.isDefEq.respectTransparency.types false in
/-- Every weakly fair execution of @main terminates; every argument array of the pipeline ends unchanged and every
    other unscoped buffer as the region found it (nothing is said of the result). -/
theorem run_mainF : θ_run defs (onTc (τ := τ) (main (F := F))) (s₀ m ρ)
    (Pipeline.RDat.FramePost (cfgs 0) (fun c => (datsF m 0 c).toRForget forgets0) (V m)) :=
  Pipeline.RDat.θ_run_frame cfgs (0 : Fin 1) launch0 defs₀ Variants.none (fun c => (datsF m 0 c).toRForget forgets0) m ρ main
    (hbody := fun c => (body_obligationF m c).toRForget) (hshare := fun c => ((datsF m 0 c).toRForget forgets0).share_full fun _ => rfl)
    (howed := fun _ _ => rfl) (V := V m) (hmain := hmain m Variants.none) (hA := A_eqF m) (hΦ := fun _ _ => rfl)

/-- The frame: the run's post read at the three argument arrays — the weight, which a window stages, by the
    library's statement that an input array is never written; the other two bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (V_main_arg0 m c),
     (Eq.mp (congrFun (((datsF m 0 c).toRForget forgets0).ArrAt_in 1 rfl _) _) ((h c).1 1)).trans ((A_eqF m c 1).trans (V_main_arg1 m c)),
     ((h c).2 main_arg2 (Pipeline.mem_restRefs_of main_arg2 (by decide) (by decide))).trans (V_main_arg2 m c)⟩) (run_mainF m ρ)

end Cert.KernelIdeal.Body

end
-- ==== Proof.ArcSpec.lean ====
/-
  The specification of the margin head, one output entry at a time, over the extended reals.

  For a row `xr` of the input (length 512), a row `wr` of the weight (length 512) and the bit `hit`
  ("this column is the row's label"), with every float literal kept as the word both programs spell:

    nrm v      = max (√(∑ₖ vₖ²)) ε                       the clamped Euclidean norm
    cosv xr wr = ∑ₖ (xrₖ / nrm xr) · (wrₖ / nrm wr)        the cosine of the two normalized rows
    phi c      = c·cos m − √(1 − c²)·sin m  if c > −cos m,  else c − m·sin m
    clip c     = min 1 (max (−1) c)

  The kernel's entry is  `outK` = (if hit then phi (clip c) else clip c) · s   with c = cosv xr wr;
  the reference's is     `outR` = (oh · phi c + (1 − oh) · c) · s              with oh = 1 if hit else 0.
  The two agree whenever both rows are finite (ArcMath.lean): both normalized rows then have Euclidean norm at most
  one, so |c| ≤ 1 by the Cauchy–Schwarz inequality and the clip is the identity; and with c and phi c real the blend
  oh·phi c + (1 − oh)·c is the selection.
-/
import Idealize.ShloMosaic.PureOps.Ideal
import Idealize.ShloMosaic.Lib.ValueIdx

noncomputable section

namespace Cert.ArcSpec

open Idealize.ShloMosaic

/-- A 32-bit float literal as the extended real its word denotes. -/
abbrev lit (w : BitVec 32) : EReal := Ideal.ofBits .f32 w

/-- The sum of a row's squares. -/
def sq (v : Fin 512 → EReal) : EReal := ∑ k, v k * v k

/-- The row's Euclidean norm, clamped below by ε. -/
def nrm (v : Fin 512 → EReal) : EReal := max (Ideal.sqrt (sq v)) (lit 0x2B8CBCCC#32)

/-- The cosine of the two rows after each is divided by its clamped norm. -/
def cosv (xr wr : Fin 512 → EReal) : EReal := ∑ k, Ideal.div (xr k) (nrm xr) * Ideal.div (wr k) (nrm wr)

/-- The angular margin applied to a cosine `c`: cos(θ + m) above the threshold, the linear fallback below it. -/
def phi (c : EReal) : EReal :=
  Scalar.select (FloatOps.cmpf (F := Ideal) (φ := .f32) .ogt c (lit 0xBF60A940#32))
    (c * lit 0x3F60A940#32 - Ideal.sqrt (lit 0x3F800000#32 - c * c) * lit 0x3EF57744#32)
    (c - lit 0x3E757744#32)

/-- The clamp to [−1, 1]. -/
def clip (c : EReal) : EReal := min (lit 0x3F800000#32) (max (lit 0xBF800000#32) c)

/-- The kernel's entry: the margin value on the label's column, the clamped cosine elsewhere, scaled. -/
def outK (xr wr : Fin 512 → EReal) (hit : BitVec 1) : EReal :=
  Scalar.select hit (phi (clip (cosv xr wr))) (clip (cosv xr wr)) * lit 0x41F00000#32

/-- The reference's entry: the one-hot blend of the margin value and the cosine, scaled. -/
def outR (xr wr : Fin 512 → EReal) (hit : BitVec 1) : EReal :=
  (FloatOps.uitofp (F := Ideal) .f32 hit * phi (cosv xr wr)
    + (lit 0x3F800000#32 - FloatOps.uitofp (F := Ideal) .f32 hit) * cosv xr wr) * lit 0x41F00000#32

end Cert.ArcSpec

end
-- ==== Proof.RefIsSpec.lean ====
/-
  The reference program's result, read one entry at a time, is the specification's entry.

  For a row index b and a column index j the reference computes, over the extended reals,
    c   = Σₖ (x[b,k] / max (√Σ x[b,·]²) ε) · (w[j,k] / max (√Σ w[j,·]²) ε)      (the cosine of the two clamped-normalized rows),
    φ   = c·cos m − √(1 − c²)·sin m  if c > −cos m,  else c − m·sin m           (the angular margin),
    oh  = 1 if label[b] = j else 0                                              (the one-hot entry),
    out = (oh·φ + (1 − oh)·c) · s,
  which is the specification's reference-side entry at the rows x[b,·], w[j,·] and the bit "label[b] = j".
  Each array operation is read at the index (b, j): an elementwise operation reads its operands at (b, j), a broadcast
  reads its operand at the coordinates it keeps, the transpose swaps the two coordinates, the row sum is the zero word
  plus the sum over the row, and the contraction is the sum over k of left[b,k] · right[k,j].
-/
import proofs.«107556_j50869592654076_2_alg».proof.Defs
import proofs.«107556_j50869592654076_2_alg».proof.Proof.Gen.ReferenceIdeal
import proofs.«107556_j50869592654076_2_alg».proof.Proof.Gen.Pre_finite_inputs
import proofs.«107556_j50869592654076_2_alg».proof.Proof.Gen.ReferenceIdeal.Read
import proofs.«107556_j50869592654076_2_alg».proof.Proof.ArcSpec
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read Cert.ArcSpec
open Idealize.ShloMosaic Idealize.ShloMosaic.TcCoe Idealize.SL.Sem Idealize.ShloMosaic.ValueIdx

/-- The one-hot bit of row b at column j: the label of row b equals the column number j as a 32-bit word. -/
def hitR (lab : IVec S512 32) (b : Fin 512) (j : Fin 100000) : BitVec 1 :=
  IntOp.cmpi .eq (lab (ix1 b)) (BitVec.ofNat 32 j.val)

/-- The reference's result as a function of the three arguments: entry (b, j) is the specification's reference-side
    entry at row b of the input, row j of the weight and the one-hot bit of (b, j). -/
def refG (x : FVec Ideal S512x512 .f32) (w : FVec Ideal S100000x512 .f32) (lab : IVec S512 32) :
    FVec Ideal S512x100000 .f32 :=
  fun i => outR (fun k => x (ix2 (i 0) k)) (fun k => w (ix2 (i 1) k)) (hitR lab (i 0) (i 1))

/-- The function's entry (b, j), with the two coordinates explicit. -/
theorem refG_apply (x : FVec Ideal S512x512 .f32) (w : FVec Ideal S100000x512 .f32) (lab : IVec S512 32)
    (b : Fin 512) (j : Fin 100000) :
    refG x w lab (ix2 b j) = outR (fun k => x (ix2 b k)) (fun k => w (ix2 j k)) (hitR lab b j) := rfl

/-- The clamped norm of row b of the input: max (√Σₖ x[b,k]²) ε. -/
theorem nrm_x (x : FVec Ideal S512x512 .f32) (b : Fin 512) (c : Fin 1) :
    val_main_v5 (F := Ideal) x (ix2 b c) = nrm (fun k => x (ix2 b k)) := by
  rw [val_main_v5_apply, val_main_v3_apply, val_main_v2_apply, val_main_v1_apply, val_main_v4_apply,
    val_main_cst_0_apply, val_main_cst_apply]
  have e : ∀ k : Fin 512, idx_main_v1 (idx_main_v2 (ix2 b c)) k = ix2 b k := fun k =>
    funext fun a => Fin.ext (by match a with | ⟨0, _⟩ => rfl | ⟨1, _⟩ => rfl)
  simp only [val_main_v0_apply, e, Ideal.mulf_def, Ideal.maximumf_def, Ideal.hostUnary_sqrt_def, Ideal.ofBits_def,
    Ideal.ofBits_zero_f32, zero_add]
  rfl

/-- The clamped norm of row j of the weight: max (√Σₖ w[j,k]²) ε. -/
theorem nrm_w (w : FVec Ideal S100000x512 .f32) (j : Fin 100000) (c : Fin 1) :
    val_main_v13 (F := Ideal) w (ix2 j c) = nrm (fun k => w (ix2 j k)) := by
  rw [val_main_v13_apply, val_main_v11_apply, val_main_v10_apply, val_main_v9_apply, val_main_v12_apply,
    val_main_cst_2_apply, val_main_cst_1_apply]
  have e : ∀ k : Fin 512, idx_main_v9 (idx_main_v10 (ix2 j c)) k = ix2 j k := fun k =>
    funext fun a => Fin.ext (by match a with | ⟨0, _⟩ => rfl | ⟨1, _⟩ => rfl)
  simp only [val_main_v8_apply, e, Ideal.mulf_def, Ideal.maximumf_def, Ideal.hostUnary_sqrt_def, Ideal.ofBits_def,
    Ideal.ofBits_zero_f32, zero_add]
  rfl

/-- The contraction's entry (b, j) is the cosine of row b of the input and row j of the weight, each divided by its
    clamped norm. -/
theorem cos_eq (x : FVec Ideal S512x512 .f32) (w : FVec Ideal S100000x512 .f32) (b : Fin 512) (j : Fin 100000) :
    val_main_v17 (F := Ideal) x w (ix2 b j) = cosv (fun k => x (ix2 b k)) (fun k => w (ix2 j k)) := by
  rw [val_main_v17_apply]
  unfold cosv
  refine Finset.sum_congr rfl fun k _ => ?_
  rw [val_main_v7_apply, val_main_v6_apply, val_main_v16_apply, val_main_v15_apply, val_main_v14_apply]
  have e2 : idx_main_v6 (lidx_main_v17 (ix2 b j) k) = ix2 b (0 : Fin 1) :=
    funext fun a => Fin.ext (by match a with | ⟨0, _⟩ => rfl | ⟨1, _⟩ => rfl)
  have e4 : idx_main_v14 (idx_main_v16 (ridx_main_v17 (ix2 b j) k)) = ix2 j (0 : Fin 1) :=
    funext fun a => Fin.ext (by match a with | ⟨0, _⟩ => rfl | ⟨1, _⟩ => rfl)
  have e1 : lidx_main_v17 (ix2 b j) k = ix2 b k :=
    funext fun a => Fin.ext (by match a with | ⟨0, _⟩ => rfl | ⟨1, _⟩ => rfl)
  have e3 : idx_main_v16 (ridx_main_v17 (ix2 b j) k) = ix2 j k :=
    funext fun a => Fin.ext (by match a with | ⟨0, _⟩ => rfl | ⟨1, _⟩ => rfl)
  rw [e2, e4, e1, e3, nrm_x, nrm_w]
  simp only [Ideal.hostDivf_def]

/-- The one-hot array's entry (b, j) is the one-hot bit of (b, j) as a float. -/
theorem onehot_eq (lab : IVec S512 32) (b : Fin 512) (j : Fin 100000) :
    val_main_v32 (F := Ideal) lab (ix2 b j) = FloatOps.uitofp (F := Ideal) .f32 (hitR lab b j) := by
  rw [val_main_v32_apply, val_main_call1_v4_apply, val_main_call1_v2_apply, val_main_call1_v0_apply,
    val_main_call1_v3_apply, val_main_call1_v1_apply]
  have e : idx_main_call1_v0 (idx_main_call1_v2 (ix2 b j)) = ix1 b :=
    funext fun a => Fin.ext (by match a with | ⟨0, _⟩ => rfl)
  rw [e]
  rfl

/-- The reference's result array is the specification read at every entry: at (b, j) the scaled one-hot blend of the
    margin value and the cosine of row b of the input with row j of the weight. -/
theorem result_eq (x : FVec Ideal S512x512 .f32) (w : FVec Ideal S100000x512 .f32) (lab : IVec S512 32) :
    val_main_v39 (F := Ideal) x w lab = refG x w lab := by
  funext i
  obtain ⟨b, j, rfl⟩ : ∃ b j, i = ix2 b j := ⟨i 0, i 1, eq_ix2 i⟩
  rw [val_main_v39_apply, val_main_v37_apply, val_main_v33_apply, val_main_v36_apply, val_main_v35_apply,
    val_main_v31_apply, val_main_v28_apply, val_main_v26_apply, val_main_v23_apply, val_main_v25_apply,
    val_main_v21_apply, val_main_v20_apply, val_main_v18_apply, val_main_v30_apply,
    val_main_v38_apply, val_main_v34_apply, val_main_v29_apply, val_main_v27_apply, val_main_v24_apply,
    val_main_v22_apply, val_main_v19_apply,
    val_main_cst_9_apply, val_main_cst_8_apply, val_main_cst_7_apply, val_main_cst_6_apply, val_main_cst_5_apply,
    val_main_cst_4_apply, val_main_cst_3_apply, cos_eq, onehot_eq]
  simp only [Ideal.mulf_def, Ideal.addf_def, Ideal.subf_def, Ideal.hostUnary_sqrt_def, Ideal.ofBits_def]
  rfl

/-- Every weakly fair execution of the reference terminates with its result array the specification read at every
    entry of the argument arrays, and the three argument arrays unchanged. -/
theorem ref_run (m' : (ℓ : Loc nD τ sig) → Buf (Elt Ideal) ℓ) (ρ' : Dev nD → PrngReg) :
    θ_run (Cert.ReferenceIdeal.defs (F := Ideal)) (onTc (τ := τ) (main (F := Ideal))) ⟨m', fun _ => 0, ρ'⟩ fun r => ∀ c : Dev nD,
      r.2.mem ((c.tc : Thread nD τ).loc main_v39)
        = refG (m' ((c.tc : Thread nD τ).loc main_arg0)) (m' ((c.tc : Thread nD τ).loc main_arg1))
            (m' ((c.tc : Thread nD τ).loc main_arg2))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2) :=
  (θ_run (Cert.ReferenceIdeal.defs (F := Ideal)) _ _).mono
    (fun _ h c => ⟨(h c).1.trans ((val_main_v39_eq m' c).trans (result_eq _ _ _)), (h c).2⟩)
    (Cert.ReferenceIdeal.Value.run (F := Ideal) m' ρ')

/-- The reference runs and leaves its three argument arrays unchanged. -/
theorem frame_ri : Cert.frame_ReferenceIdeal := fun m ρ _ =>
  (θ_run (Cert.ReferenceIdeal.defs (F := Ideal)) _ _).mono (fun _ h c => (h c).2)
    (Cert.ReferenceIdeal.Value.run (F := Ideal) m ρ)

end Cert.ReferenceIdeal.RefValue

end
-- ==== Proof.KerSpec.lean ====
/-
  The kernel's result as ONE function of the three argument arrays: entry (b, j) of the 512×100000 result is the
  specification's kernel entry `outK` of row b of the input, row j of the weight, and the bit "row b's label is j".
-/
import proofs.«107556_j50869592654076_2_alg».proof.KernelIdeal
import proofs.«107556_j50869592654076_2_alg».proof.Proof.ArcSpec
import Idealize.ShloMosaic.Lib.ValueIdx

noncomputable section

namespace Cert.KernelIdeal.KerSpec

open Cert.KernelIdeal Idealize.ShloMosaic Idealize.ShloMosaic.ValueIdx Cert.ArcSpec

/-- The bit "the label word `l` is the column number `j`". -/
def hitBit (l : BitVec 32) (j : Nat) : BitVec 1 := IntOp.cmpi .eq l (BitVec.ofNat 32 j)

/-- The kernel's result array as a function of the input, the weight and the labels. -/
def kerG (x : FVec Ideal S512x512 .f32) (w : FVec Ideal S100000x512 .f32) (lab : IVec S512 32) : FVec Ideal S512x100000 .f32 :=
  fun i => outK (fun k => x (ix2 (i 0) k)) (fun k => w (ix2 (i 1) k)) (hitBit (lab (ix1 (i 0))) (i 1).val)

end Cert.KernelIdeal.KerSpec

end
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.LibColumnLayout.lean ====
/-
  Two layout operations read at an index given by coordinates, for a column kept as a trailing unit axis
  (`keepdims=True`): a vector `[a]` cast to a column `[a, 1]`, and a column `[a, 1]` broadcast along the rows of
  `[a, b]`. Each reads one element of its operand: the one with the same row.
-/
import Idealize.ShloMosaic.Lib.ValueLayout

namespace Cert.ColumnLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.PayloadAt.lean ====
/-
  The kernel body's arithmetic read at one entry, over the extended reals.

  At grid coordinates `i` the body computes, from the buffer `x0` of the normalized input (512×512), one buffer `x1`
  of 2048 weight rows (2048×512) and the label column `x2` (512×1), the block (512×2048) whose entry at row `p`,
  lane `q` is: the cosine  c = ∑ₖ x0[p,k] · (x1[q,k] / nrm x1[q,·])  — the matrix product of the input buffer with
  the transposed, row-normalized weight buffer —, clamped to [−1, 1], replaced by its margin value where the lane's
  column number (block·2048 + q) equals row p's label, and scaled. ONLY ROW q of the weight buffer enters entry (p, q).
-/
import proofs.«107556_j50869592654076_2_alg».proof.Proof.Gen.KernelIdeal.Skeleton
import proofs.«107556_j50869592654076_2_alg».proof.Proof.ArcSpec
import proofs.«107556_j50869592654076_2_alg».proof.Proof.LibDenseRows
import proofs.«107556_j50869592654076_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayloadAt

open Cert.KernelIdeal Cert.KernelIdeal.Gen Idealize.ShloMosaic Idealize.ShloMosaic.ValueIdx
open Cert.ArcSpec Cert.DenseRows Cert.ColumnLayout

/-- The cosine when the left row comes already normalized. -/
def cosW (xn wr : Fin 512 → EReal) : EReal := ∑ k, xn k * Ideal.div (wr k) (nrm wr)

/-- The kernel's entry over an already normalized left row. -/
def outKw (xn wr : Fin 512 → EReal) (hit : BitVec 1) : EReal :=
  Scalar.select hit (phi (clip (cosW xn wr))) (clip (cosW xn wr)) * lit 0x41F00000#32

/-- Normalizing the left row first and then taking `cosW` is the specification's cosine. -/
theorem cosv_eq_cosW (xr wr : Fin 512 → EReal) : cosv xr wr = cosW (fun k => Ideal.div (xr k) (nrm xr)) wr := rfl

/-- … and likewise for the whole entry. -/
theorem outK_eq_outKw (xr wr : Fin 512 → EReal) (hit : BitVec 1) :
    outK xr wr hit = outKw (fun k => Ideal.div (xr k) (nrm xr)) wr hit := rfl

/-! ## The contraction's coordinates -/

theorem lhs0 (j : S512x2048.Idx) (k : dot_S512x512_S512x2048_S512x2048_1_0_0_1_n_n.contr.Idx) :
    (dot_S512x512_S512x2048_S512x2048_1_0_0_1_n_n.lhsIdx j k (0 : Fin 2)).val = (j (0 : Fin 2)).val := by
  unfold DotDims.lhsIdx
  rw [dif_neg (show ¬(0 : Fin S512x512.rank) ∈ dot_S512x512_S512x2048_S512x2048_1_0_0_1_n_n.lhsBatch by decide),
    dif_pos (show (0 : Fin S512x512.rank) ∈ dot_S512x512_S512x2048_S512x2048_1_0_0_1_n_n.lhsNonContracting by decide)]
  rfl

theorem rhs1 (j : S512x2048.Idx) (k : dot_S512x512_S512x2048_S512x2048_1_0_0_1_n_n.contr.Idx) :
    (dot_S512x512_S512x2048_S512x2048_1_0_0_1_n_n.rhsIdx j k (1 : Fin 2)).val = (j (1 : Fin 2)).val := by
  unfold DotDims.rhsIdx
  rw [dif_neg (show ¬(1 : Fin S512x2048.rank) ∈ dot_S512x512_S512x2048_S512x2048_1_0_0_1_n_n.rhsBatch by decide),
    dif_pos (show (1 : Fin S512x2048.rank) ∈ dot_S512x512_S512x2048_S512x2048_1_0_0_1_n_n.rhsNonContracting by decide)]
  rfl

/-! ## The weight buffer, row-normalized and transposed -/

/-- The column of clamped row norms of the weight buffer. -/
def normCol (x1 : FVec Ideal S2048x512 .f32) : FVec Ideal S2048x1 .f32 :=
  maximumf (sqrt (shapeCast S2048x1 (multiReduction .add [1] S2048 (mulf x1 x1) 0x00000000#32 reduces_S2048x512_S2048 (.inl rfl) rfl) shapeCasts_S2048_S2048x1))
    (broadcast S2048x1 (Scalar.ofBits .f32 0x2B8CBCCC#32))

/-- Row `q` of that column is the clamped norm of row `q`. -/
theorem normCol_apply (x1 : FVec Ideal S2048x512 .f32) (q : Fin 2048) :
    normCol x1 (ix2 q (0 : Fin 1)) = nrm (fun k => x1 (ix2 q k)) := by
  unfold normCol
  show max (Ideal.sqrt (shapeCast S2048x1 (multiReduction .add [1] S2048 (mulf x1 x1) 0x00000000#32 reduces_S2048x512_S2048 (.inl rfl) rfl)
        shapeCasts_S2048_S2048x1 (ix2 q (0 : Fin 1)))) (Ideal.ofBits .f32 0x2B8CBCCC#32)
      = max (Ideal.sqrt (∑ k : Fin 512, x1 (ix2 q k) * x1 (ix2 q k))) (Ideal.ofBits .f32 0x2B8CBCCC#32)
  refine congrArg (fun s => max (Ideal.sqrt s) (Ideal.ofBits .f32 0x2B8CBCCC#32)) ?_
  exact (shapeCast_a_a1_apply _ shapeCasts_S2048_S2048x1 q (0 : Fin 1)).trans
    (laneSum_apply (mulf x1 x1) reduces_S2048x512_S2048 (.inl rfl) rfl
      (fun r k => funext fun a => Fin.ext (by match a with | ⟨0, _⟩ => rfl | ⟨1, _⟩ => rfl)) q)

/-- The weight buffer divided row by row by its clamped norms, then transposed. -/
def wnT (x1 : FVec Ideal S2048x512 .f32) : FVec Ideal S512x2048 .bf16 :=
  transpose S512x2048 [1, 0] (truncf .bf16 (divf x1 (broadcastTo S2048x512 (normCol x1) broadcasts_S2048x1_S2048x512)) bitsLt_bf16_f32)
    transposes_S2048x512_p1_0_S512x2048

/-- Its entry at `(k, q)` is entry `k` of the normalized row `q`. -/
theorem wnT_apply (x1 : FVec Ideal S2048x512 .f32) (k : Fin 512) (q : Fin 2048) :
    wnT x1 (ix2 k q) = Ideal.div (x1 (ix2 q k)) (nrm (fun k' => x1 (ix2 q k'))) := by
  unfold wnT
  rw [transpose_apply [1, 0] _ _ (ix2 k q) (ix2 q k) (fun b => by match b with | ⟨0, _⟩ => rfl | ⟨1, _⟩ => rfl)]
  show Ideal.div (x1 (ix2 q k)) (broadcastTo S2048x512 (normCol x1) broadcasts_S2048x1_S2048x512 (ix2 q k)) = _
  rw [broadcastTo_a1_ab_apply, normCol_apply]

/-- The matrix product at `(p, q)`: the cosine of the input buffer's row `p` against the weight buffer's row `q`. -/
theorem cos_apply (x0 : FVec Ideal S512x512 .bf16) (x1 : FVec Ideal S2048x512 .f32) (p : Fin 512) (q : Fin 2048) :
    matmul dot_S512x512_S512x2048_S512x2048_1_0_0_1_n_n none (shapeCast S512x512 x0 shapeCasts_S512x512_S512x512) (wnT x1)
        (constant (F := Ideal) S512x2048 .f32 0x00000000#32) (ix2 p q)
      = cosW (fun k => x0 (ix2 p k)) (fun k => x1 (ix2 q k)) := by
  rw [matmul_zero_plain_apply dot_S512x512_S512x2048_S512x2048_1_0_0_1_n_n rfl rfl rfl rfl lhs0 rhs1]
  unfold cosW
  refine Finset.sum_congr rfl fun k _ => ?_
  rw [shapeCast_self, wnT_apply]

/-! ## The label test -/

/-- The block's column numbers: the block's first column plus the lane. -/
def colIdx (n : BitVec 32) : IVec S512x2048 32 :=
  addi (broadcast S512x2048 (Scalar.muli n 2048#32)) (iota .tc S512x2048 32 [1] iota_S512x2048_d1_w32)

/-- The test "this lane's column is the row's label" at `(p, q)`. -/
theorem hit_apply (n : BitVec 32) (x2 : IVec S512x1 32) (p : Fin 512) (q : Fin 2048) :
    cmpi .eq (colIdx n) (broadcastTo S512x2048 (shapeCast S512x1 x2 shapeCasts_S512x1_S512x1) broadcasts_S512x1_S512x2048) (ix2 p q)
      = IntOp.cmpi .eq (IntOp.addi (IntOp.muli n 2048#32) (BitVec.ofNat 32 q.val)) (x2 (ix2 p (0 : Fin 1))) := by
  show IntOp.cmpi .eq (IntOp.addi (IntOp.muli n 2048#32) (iota .tc S512x2048 32 [1] iota_S512x2048_d1_w32 (ix2 p q)))
      (broadcastTo S512x2048 (shapeCast S512x1 x2 shapeCasts_S512x1_S512x1) broadcasts_S512x1_S512x2048 (ix2 p q)) = _
  rw [iota_single_apply, broadcastTo_a1_ab_apply, shapeCast_self]

/-! ## The stored value at an entry -/

/-- Entry `(p, q)` of what the body stores. -/
theorem pay_apply (i : grid0.Coords) (x0 : Vec Ideal S512x512 .bf16) (x1 : Vec Ideal S2048x512 .f32) (x2 : Vec Ideal S512x1 .i32)
    (p : Fin 512) (q : Fin 2048) :
    k0_pay1 (F := Ideal) (k0_pay2 i x0 x1 x2) (Scalar.ofBits .f32 0x41F00000#32) (ix2 p q)
      = outKw (fun k => x0 (ix2 p k)) (fun k => x1 (ix2 q k))
          (IntOp.cmpi .eq (IntOp.addi (IntOp.muli (BitVec.ofNat 32 (i 0).val) 2048#32) (BitVec.ofNat 32 q.val)) (x2 (ix2 p (0 : Fin 1)))) := by
  have hc := cos_apply x0 x1 p q
  have hh := hit_apply (BitVec.ofNat 32 (i 0).val) x2 p q
  unfold outKw phi clip
  rw [← hc, ← hh]
  rfl

end Cert.KernelIdeal.PayloadAt

end
-- ==== Proof.ValueBody.lean ====
/-
  The idealized kernel's run with every buffer's contents named.

  At grid point t the result's staging buffer ends at `outBlk` of the three input buffers. Its entry at row p, lane q
  depends on the weight buffer only through that buffer's row q (PayloadAt.lean); the write-back moves only the lanes
  q whose column t·2048 + q lies inside the 100000 columns of the result, and for exactly those lanes row q of the
  weight buffer lies inside the weight array: it is row t·2048 + q of the array, whatever words fill the buffer past the
  array's end. So the part of the block that is written back does not depend on those words, which is what the
  pipeline's obligation for a window whose last block overhangs its array asks.
-/
import proofs.«107556_j50869592654076_2_alg».proof.Proof.IdealBody
import proofs.«107556_j50869592654076_2_alg».proof.Proof.PayloadAt
import Idealize.ShloMosaic.Lib.Pipeline.Value

set_option maxRecDepth 16384

noncomputable section

namespace Cert.KernelIdeal.ValueBody

open Cert.KernelIdeal Cert.KernelIdeal.Gen Cert.KernelIdeal.Body Cert.KernelIdeal.PayloadAt
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The grid's arithmetic, decided once over its 49 points -/

/-- Where each window's block sits at point t, and how much of the clipped blocks lies inside their arrays: the
    input and the labels at block (0, 0); the weight at block (t, 0) and the result at block (0, t); the result's
    columns inside the array as many as the weight's rows inside the array, at most 2048, and ending by column 100000. -/
theorem gridfacts : ∀ t : Fin cfg0.N,
    (grid0.coords t 0).val = t.val
    ∧ win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val
    ∧ win0_3.xsize (grid0.coords t) (0 : Fin 2) = 512
    ∧ win0_3.xsize (grid0.coords t) (1 : Fin 2) = win0_1.xsize (grid0.coords t) (0 : Fin 2)
    ∧ win0_1.xsize (grid0.coords t) (1 : Fin 2) = 512
    ∧ win0_3.xsize (grid0.coords t) (1 : Fin 2) ≤ 2048
    ∧ t.val * 2048 + win0_3.xsize (grid0.coords t) (1 : Fin 2) ≤ 100000 :=
  (by decide +kernel : ∀ t : Fin grid0.N, _)

/-! ## The block the body leaves, entry by entry -/

theorem hz : (![0, 0] : Fin 2 → Nat) = fun _ => 0 := funext fun a => by fin_cases a <;> rfl

/-- The block is the stored payload of the three loaded buffers. -/
theorem outBlk_eq (i : grid0.Coords) (x0 : Vec Ideal S512x512 .bf16) (x1 : Vec Ideal S2048x512 .f32) (x2 : Vec Ideal S512x1 .i32) :
    outBlk (F := Ideal) i x0 x1 x2 = k0_pay1 (k0_pay2 i x0 x1 x2) (Scalar.ofBits .f32 0x41F00000#32) := by
  unfold outBlk
  rw [View.canon_unit_zero hz]
  simp only [View.ld_unit_zero (S := S512x512) hz, View.ld_unit_zero (S := S2048x512) hz, View.ld_unit_zero (S := S512x1) hz]

/-- Its entry at an index whose coordinates are p and q. -/
theorem outBlk_at (i : grid0.Coords) (x0 : Vec Ideal S512x512 .bf16) (x1 : Vec Ideal S2048x512 .f32) (x2 : Vec Ideal S512x1 .i32)
    (j : S512x2048.Idx) (p : Fin 512) (q : Fin 2048) (hp : (j 0).val = p.val) (hq : (j 1).val = q.val) :
    outBlk (F := Ideal) i x0 x1 x2 j
      = outKw (fun k => x0 (ix2 p k)) (fun k => x1 (ix2 q k))
          (IntOp.cmpi .eq (IntOp.addi (IntOp.muli (BitVec.ofNat 32 (i 0).val) 2048#32) (BitVec.ofNat 32 q.val)) (x2 (ix2 p (0 : Fin 1)))) := by
  have e : j = ix2 p q := funext fun a => Fin.ext (by match a with | ⟨0, _⟩ => exact hp | ⟨1, _⟩ => exact hq)
  rw [e, outBlk_eq, pay_apply]

/-! ## A fetched weight buffer, row by row -/

/-- Row q of the weight's staging buffer after the fetch at point t, for a row the fetch moves, is row t·2048 + q of
    the weight array — whatever the buffer held past the array's end. -/
theorem wrow (c : Dev nD) (t : Fin cfg0.N) (d : (cfg0.win 1).block.Idx → Elt Ideal (cfg0.win 1).elt) (q : Fin 2048) (k : Fin 512)
    (hq : q.val < win0_1.xsize (grid0.coords t) (0 : Fin 2)) (J : Fin 100000) (hJ : J.val = t.val * 2048 + q.val) :
    (cfg0.win 1).fill (cfg0.grid.coords t) d (iblk m c 1 t) (ix2 q k) = m ((c : Thread nD τ).loc main_arg1) (ix2 J k) := by
  obtain ⟨g0, a00, a01, a10, a11, a20, a21, a30, a31, s30, s31, s11, s3le, s3end⟩ := gridfacts t
  have hm : (cfg0.win 1).moved (cfg0.grid.coords t) (ix2 q k) = true :=
    ((cfg0.win 1).moved_iff _ _).mpr fun a => by
      match a with
      | ⟨0, _⟩ => exact hq
      | ⟨1, _⟩ => show k.val < win0_1.xsize (grid0.coords t) (1 : Fin 2); rw [s11]; exact k.isLt
  unfold Window.fill
  rw [dif_pos hm]
  show V m c main_arg1 (((cfg0.win 1).blk t).view.emb _) = _
  rw [V_main_arg1]
  refine congrArg _ (funext fun a => Fin.ext ?_)
  match a with
  | ⟨0, _⟩ => show win0_1.index t (0 : Fin 2) * 2048 + 1 * q.val = J.val; omega
  | ⟨1, _⟩ => show win0_1.index t (1 : Fin 2) * 512 + 1 * k.val = k.val; omega

/-- The part of the block that point t writes back, entry by entry: row y₀, lane y₁ is the kernel's entry of row y₀ of
    the input buffer against row t·2048 + y₁ of the weight ARRAY. The words `d` past the array's end do not enter. -/
theorem cut_out (c : Dev nD) (t : Fin cfg0.N) (d : (cfg0.win 1).block.Idx → Elt Ideal (cfg0.win 1).elt)
    (y : ((cfg0.win 3).xblock (cfg0.grid.coords t)).Idx) (p : Fin 512) (q : Fin 2048) (J : Fin 100000)
    (hp : (y 0).val = p.val) (hq : (y 1).val = q.val) (hJ : J.val = t.val * 2048 + q.val) :
    (cfg0.win 3).cut (cfg0.grid.coords t)
        (outBlk (F := Ideal) (grid0.coords t) (iblk m c 0 t) ((cfg0.win 1).fill (cfg0.grid.coords t) d (iblk m c 1 t)) (iblk m c 2 t)) y
      = outKw (fun k => iblk m c 0 t (ix2 p k)) (fun k => m ((c : Thread nD τ).loc main_arg1) (ix2 J k))
          (IntOp.cmpi .eq (IntOp.addi (IntOp.muli (BitVec.ofNat 32 (grid0.coords t 0).val) 2048#32) (BitVec.ofNat 32 q.val))
            (iblk m c 2 t (ix2 p (0 : Fin 1)))) := by
  obtain ⟨g0, a00, a01, a10, a11, a20, a21, a30, a31, s30, s31, s11, s3le, s3end⟩ := gridfacts t
  have hy1 : (y 1).val < win0_3.xsize (grid0.coords t) (1 : Fin 2) := (y 1).isLt
  show outBlk (F := Ideal) (grid0.coords t) (iblk m c 0 t) ((cfg0.win 1).fill (cfg0.grid.coords t) d (iblk m c 1 t)) (iblk m c 2 t)
      ((cfg0.win 3).xinj (cfg0.grid.coords t) y) = _
  rw [outBlk_at _ _ _ _ _ p q hp hq]
  have hrow : (fun k => (cfg0.win 1).fill (cfg0.grid.coords t) d (iblk m c 1 t) (ix2 q k))
      = fun k => m ((c : Thread nD τ).loc main_arg1) (ix2 J k) :=
    funext fun k => wrow m c t d q k (by rw [← s31, ← hq]; exact hy1) J hJ
  rw [hrow]

/-! ## The proof data, every window named -/

/-- After the body: the input and the labels at their blocks, the weight buffer at its block filled out, the result's
    at the block computed from those three. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => wfill m c t
    | ⟨2, _⟩ => iblk m c 2 t
    | ⟨3, _⟩ => outBlk (F := Ideal) (grid0.coords t) (iblk m c 0 t) (wfill m c t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = wfill m c t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = outBlk (F := Ideal) (grid0.coords t) (iblk m c 0 t) (wfill m c t) (iblk m c 2 t) := by dsimp only [dats]

theorem before_0 (c : Dev nD) (t : Fin cfg0.N) (d) : (dats m 0 c).before 0 t d = iblk m c 0 t :=
  before0_0_of m (dats m 0 c) (A_eq m c 0) (after_0 m c) t d
theorem before_2 (c : Dev nD) (t : Fin cfg0.N) (d) : (dats m 0 c).before 2 t d = iblk m c 2 t :=
  before0_2_of m (dats m 0 c) (A_eq m c 2) (after_2 m c) t d
theorem before_1 (c : Dev nD) (t : Fin cfg0.N) (d) :
    (dats m 0 c).before 1 t d = (cfg0.win 1).fill (cfg0.grid.coords t) d (iblk m c 1 t) := by
  unfold Dat.before; rw [if_pos (fetch0_1 t)]
  unfold Dat.fetched Dat.blockOf iblk; rw [A_eq]

/-- What is written back does not depend on the words past the array's end: two fills of the weight buffer give
    blocks that agree on the part the write-back moves. -/
theorem cut_indep (c : Dev nD) (t : Fin cfg0.N) (d d' : (cfg0.win 1).block.Idx → Elt Ideal (cfg0.win 1).elt) :
    (cfg0.win 3).cut (cfg0.grid.coords t)
        (outBlk (F := Ideal) (grid0.coords t) (iblk m c 0 t) ((cfg0.win 1).fill (cfg0.grid.coords t) d (iblk m c 1 t)) (iblk m c 2 t))
      = (cfg0.win 3).cut (cfg0.grid.coords t)
        (outBlk (F := Ideal) (grid0.coords t) (iblk m c 0 t) ((cfg0.win 1).fill (cfg0.grid.coords t) d' (iblk m c 1 t)) (iblk m c 2 t)) := by
  obtain ⟨g0, a00, a01, a10, a11, a20, a21, a30, a31, s30, s31, s11, s3le, s3end⟩ := gridfacts t
  funext y
  have hy0 : (y 0).val < win0_3.xsize (grid0.coords t) (0 : Fin 2) := (y 0).isLt
  have hy1 : (y 1).val < win0_3.xsize (grid0.coords t) (1 : Fin 2) := (y 1).isLt
  rw [cut_out m c t d y ⟨(y 0).val, by omega⟩ ⟨(y 1).val, by omega⟩ ⟨t.val * 2048 + (y 1).val, by omega⟩ rfl rfl rfl,
    cut_out m c t d' y ⟨(y 0).val, by omega⟩ ⟨(y 1).val, by omega⟩ ⟨t.val * 2048 + (y 1).val, by omega⟩ rfl rfl rfl]

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ owns (c : Thread nD τ) (st0_2 t) fullShare ((dats m 0 c).after 2 t)
    ∗ (∃ d, owns (c : Thread nD τ) (st0_3 t) fullShare
        ((cfg0.win 3).fill (cfg0.grid.coords t) d ((cfg0.win 3).cut (cfg0.grid.coords t) ((dats m 0 c).after 3 t)))))

/-- The body at any point: the buffers hold what `before_W` say; the triple leaves the result's buffer at the block of
    the weight buffer as found, which agrees with the named block on the part written back. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel (F := Ideal) c Set.univ (grid0.coords t) _ _ _ _ _ _ _ _ (iblk m c 0 t)
    ((cfg0.win 1).fill (cfg0.grid.coords t) d1 (iblk m c 1 t)) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1
    unfold wfill
    rw [(cfg0.win 1).cut_fill]
    iexact H1
  isplitl [H2]; · iexact H2
  iexists outBlk (F := Ideal) (grid0.coords t) (iblk m c 0 t) ((cfg0.win 1).fill (cfg0.grid.coords t) d1 (iblk m c 1 t)) (iblk m c 2 t)
  unfold wfill
  rw [(cfg0.win 3).fill_congr_cut (cfg0.grid.coords t) (cut_indep m c t d1 _)]
  iexact H3

/-- The library's body obligation at every point. -/
theorem body_obligation (c : Dev nD) :
    Pipeline.BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of @main terminates, with every array of the pipeline at what the proof data
    computes and every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

end Cert.KernelIdeal.ValueBody

end
-- ==== Proof.HostPrefix.lean ====
/-
  The host operations before the kernel's launch, read at an index.

  Before the launch the wrapper divides every row of the input by its clamped Euclidean norm — entry (p, k) becomes
  x[p,k] / max (√(0 + Σₖ' x[p,k']²)) ε, the format change that follows being the identity over the extended reals —
  and lays the label vector out as a column: entry (p, 0) of the column is label p.
-/
import proofs.«107556_j50869592654076_2_alg».proof.Proof.Gen.KernelIdeal.Frame
import proofs.«107556_j50869592654076_2_alg».proof.Proof.ArcSpec
import proofs.«107556_j50869592654076_2_alg».proof.Proof.LibDenseRows
import Idealize.ShloMosaic.Lib.StableHlo.Run
import Idealize.ShloMosaic.Lib.ValueLayout

noncomputable section

namespace Cert.KernelIdeal.HostPrefix

open Cert.KernelIdeal Cert.KernelIdeal.Gen
open Idealize.ShloMosaic Idealize.ShloMosaic.TcCoe Idealize.SL.Sem Idealize.ShloMosaic.ValueIdx
open scoped BigOperators

/-! ## The two computations as functions of the argument arrays -/

/-- The wrapper's normalization of the input: every entry divided by the clamped Euclidean norm of its row, written as
    the composition of the host operations (square, row sum from the zero word, column layout, square root, clamp,
    layout back over the rows, quotient, format change). -/
def normRows (x : FVec Ideal S512x512 .f32) : FVec Ideal S512x512 .bf16 :=
  truncf (F := Ideal) .bf16
    (Host.divf (F := Ideal) (φ := .f32) x
      (broadcastInDim S512x512 ![0, 1] bcast_S512x1_S512x512_0_1
        (maximumf (F := Ideal) (φ := .f32)
          (Host.sqrt (F := Ideal) (φ := .f32)
            (broadcastInDim S512x1 ![0] bcast_S512_S512x1_0
              (Host.reduceAdd (F := Ideal) (φ := .f32) (mulf (F := Ideal) (φ := .f32) x x)
                (constant (F := Ideal) S_ .f32 0x00000000#32) reducesTo_S512x512_S512_d1 h_S_)))
          (broadcastInDim S512x1 ![] bcast_S_S512x1 (constant (F := Ideal) S_ .f32 0x2B8CBCCC#32)))))
    bitsLt_bf16_f32

/-- The label vector laid out as a column. -/
def labelColumn (lab : IVec S512 32) : IVec S512x1 32 := shapeCast S512x1 lab shapeCasts_S512_S512x1

/-- The host's square root at an index is the square root of the element. -/
theorem hostSqrt_apply {s : Shape} {φ : FTy} (a : FVec Ideal s φ) (i : s.Idx) : Host.sqrt a i = Ideal.sqrt (a i) := rfl

/-- The input's shape with its column axis summed away is the vector shape: the relation that names the summed index. -/
theorem reduces_cols : (⟨2, ![512, 512]⟩ : Shape).Reduces [(1 : Fin 2)] ⟨1, ![512]⟩ := by decide

/-- The summed index re-inserted at row `r` is the pair `(r, k)`. -/
theorem lift_cols (r k : Fin 512) : reduces_cols.lift (ix1 r) k = ix2 r k :=
  funext fun a => Fin.ext (by match a with | ⟨0, _⟩ => rfl | ⟨1, _⟩ => rfl)

/-- Entry `(p, k)` of the normalized input is the input's entry divided by the clamped Euclidean norm of its row: the
    row sum starts from the zero word, the square root and the clamp act on the column of row sums, the column is laid
    back over the row, and the final format change is the identity. -/
theorem normRows_apply (x : FVec Ideal S512x512 .f32) (p k : Fin 512) :
    normRows x (ix2 p k) = Ideal.div (x (ix2 p k)) (Cert.ArcSpec.nrm (fun k' => x (ix2 p k'))) := by
  unfold normRows
  rw [truncf_apply, hostDivf_apply, Cert.DenseRows.broadcastInDim_a1_ab_apply, maximumf_apply, hostSqrt_apply,
    Cert.DenseRows.broadcastInDim_a_a1_apply, Cert.DenseRows.hostRowSum_apply _ _ _ _ reduces_cols lift_cols,
    broadcastInDim_scalar_apply, constant_apply, constant_apply, Ideal.ofBits_zero_f32, zero_add]
  unfold Cert.ArcSpec.nrm Cert.ArcSpec.sq
  rfl

/-- Entry `(p, 0)` of the label column is label `p`: the column holds the vector's elements in the same row-major order. -/
theorem labelColumn_apply (lab : IVec S512 32) (p : Fin 512) : labelColumn lab (ix2 p (0 : Fin 1)) = lab (ix1 p) := by
  unfold labelColumn
  exact shapeCast_apply (s := S512) (t := S512x1) lab shapeCasts_S512_S512x1 (ix2 p (0 : Fin 1)) (ix1 p) (by
    rw [Shape.rowMajor_val_two, Shape.rowMajor_val_one]
    show p.val = p.val * 1 + 0
    omega)

/-! ## The launched arrays are those functions of the argument arrays -/

/-- The array the kernel reads as its first operand is the normalized input. -/
theorem V_v8_eq (m : (ℓ : Loc nD τ sig) → Buf (Elt Ideal) ℓ) (c : Dev nD) :
    (Cert.KernelIdeal.Gen.V (F := Ideal) m c main_v8 : S512x512.Idx → EReal)
      = normRows (m ((c : Thread nD τ).loc main_arg0)) := by
  unfold normRows
  dsimp only [Cert.KernelIdeal.Gen.V, Cert.KernelIdeal.Gen.hostOps0]
  after_results
  all_goals rfl

/-- The array the kernel reads as its third operand is the label column. -/
theorem V_v9_eq (m : (ℓ : Loc nD τ sig) → Buf (Elt Ideal) ℓ) (c : Dev nD) :
    (Cert.KernelIdeal.Gen.V (F := Ideal) m c main_v9 : S512x1.Idx → BitVec 32)
      = labelColumn (m ((c : Thread nD τ).loc main_arg2)) := by
  unfold labelColumn
  dsimp only [Cert.KernelIdeal.Gen.V, Cert.KernelIdeal.Gen.hostOps0]
  after_results
  all_goals rfl

/-- Entry `(p, k)` of the kernel's first operand: the input's entry divided by the clamped Euclidean norm of its row. -/
theorem V_v8_apply (m : (ℓ : Loc nD τ sig) → Buf (Elt Ideal) ℓ) (c : Dev nD) (p k : Fin 512) :
    (Cert.KernelIdeal.Gen.V (F := Ideal) m c main_v8 : S512x512.Idx → EReal) (ix2 p k)
      = Ideal.div (m ((c : Thread nD τ).loc main_arg0) (ix2 p k))
          (Cert.ArcSpec.nrm (fun k' => m ((c : Thread nD τ).loc main_arg0) (ix2 p k'))) := by
  rw [V_v8_eq]
  exact normRows_apply _ p k

/-- Entry `(p, 0)` of the kernel's third operand: label `p`. -/
theorem V_v9_apply (m : (ℓ : Loc nD τ sig) → Buf (Elt Ideal) ℓ) (c : Dev nD) (p : Fin 512) :
    (Cert.KernelIdeal.Gen.V (F := Ideal) m c main_v9 : S512x1.Idx → BitVec 32) (ix2 p (0 : Fin 1))
      = m ((c : Thread nD τ).loc main_arg2) (ix1 p) := by
  rw [V_v9_eq]
  exact labelColumn_apply _ p

end Cert.KernelIdeal.HostPrefix

end
-- ==== Proof.BlocksCover.lean ====
/-
  The grid arithmetic of the kernel's four windows.

  The grid is one axis of 49 points t = 0, …, 48. The input (512 × 512) and the labels (512 × 1) are one block each, at
  block index (0, 0) at every point. The weight (100000 × 512) is cut into blocks of 2048 rows, block t at point t; the
  result (512 × 100000) into blocks of 2048 columns, block t at point t. Since 100000 = 48 · 2048 + 1696, the last
  block of either overhangs the array and only its first 1696 rows (columns) lie inside: at point t the part inside the
  array has min 2048 (100000 − 2048 t) of them. So element y of block t of the result sits at row y₀ and column
  2048 t + y₁ of the array, an index (r, c) of the result lies in block t iff 2048 t ≤ c < 2048 t + min 2048 (100000 − 2048 t),
  and every index lies in block c / 2048. The column number the kernel forms as the 32-bit word
  t · 2048 + q is the word of the natural number 2048 t + q, machine arithmetic being arithmetic modulo 2³².
-/
import proofs.«107556_j50869592654076_2_alg».proof.Proof.Gen.KernelIdeal.Points
import proofs.«107556_j50869592654076_2_alg».proof.Proof.Gen.KernelIdeal.Launch
import Idealize.ShloMosaic.Lib.Pipeline.Value
import Idealize.ShloMosaic.Lib.ValueIdx

noncomputable section

namespace Cert.KernelIdeal.BlocksCover

open Cert.KernelIdeal Cert.KernelIdeal.Gen
open Idealize.ShloMosaic Idealize.ShloMosaic.TcCoe Idealize.SL.Sem

/-! ## The index maps and the clipped extents, point by point -/

/-- The grid's one coordinate at point t is t. -/
theorem coords_val : ∀ t : Fin cfg0.N, (grid0.coords t 0).val = t.val :=
  (by decide +kernel : ∀ t : Fin grid0.N, _)

/-- The result's block at point t has block index (0, t). -/
theorem index3 : ∀ t : Fin cfg0.N, win0_3.index t (0 : Fin 2) = 0 ∧ win0_3.index t (1 : Fin 2) = t.val :=
  (by decide +kernel : ∀ t : Fin grid0.N, _)

/-- The weight's block at point t has block index (t, 0). -/
theorem index1 : ∀ t : Fin cfg0.N, win0_1.index t (0 : Fin 2) = t.val ∧ win0_1.index t (1 : Fin 2) = 0 :=
  (by decide +kernel : ∀ t : Fin grid0.N, _)

/-- The input's block has block index (0, 0) at every point. -/
theorem index0 : ∀ t : Fin cfg0.N, win0_0.index t (0 : Fin 2) = 0 ∧ win0_0.index t (1 : Fin 2) = 0 :=
  (by decide +kernel : ∀ t : Fin grid0.N, _)

/-- The labels' block has block index (0, 0) at every point. -/
theorem index2 : ∀ t : Fin cfg0.N, win0_2.index t (0 : Fin 2) = 0 ∧ win0_2.index t (1 : Fin 2) = 0 :=
  (by decide +kernel : ∀ t : Fin grid0.N, _)

/-- The part of the result's block t inside the array: all 512 rows, and min 2048 (100000 − 2048 t) columns. -/
theorem xsize3 : ∀ t : Fin cfg0.N, win0_3.xsize (grid0.coords t) (0 : Fin 2) = 512
    ∧ win0_3.xsize (grid0.coords t) (1 : Fin 2) = min 2048 (100000 - t.val * 2048) :=
  (by decide +kernel : ∀ t : Fin grid0.N, _)

/-- The part of the weight's block t inside the array: min 2048 (100000 − 2048 t) rows, and all 512 columns. -/
theorem xsize1 : ∀ t : Fin cfg0.N, win0_1.xsize (grid0.coords t) (0 : Fin 2) = min 2048 (100000 - t.val * 2048)
    ∧ win0_1.xsize (grid0.coords t) (1 : Fin 2) = 512 :=
  (by decide +kernel : ∀ t : Fin grid0.N, _)

/-- The input's block is whole at every point: 512 × 512. -/
theorem xsize0 : ∀ t : Fin cfg0.N, win0_0.xsize (grid0.coords t) (0 : Fin 2) = 512
    ∧ win0_0.xsize (grid0.coords t) (1 : Fin 2) = 512 :=
  (by decide +kernel : ∀ t : Fin grid0.N, _)

/-- The labels' block is whole at every point: 512 × 1. -/
theorem xsize2 : ∀ t : Fin cfg0.N, win0_2.xsize (grid0.coords t) (0 : Fin 2) = 512
    ∧ win0_2.xsize (grid0.coords t) (1 : Fin 2) = 1 :=
  (by decide +kernel : ∀ t : Fin grid0.N, _)

/-- At every point as many rows of the weight's block lie inside the weight as columns of the result's block inside the
    result. -/
theorem xsize1_eq_xsize3 (t : Fin cfg0.N) :
    win0_1.xsize (grid0.coords t) (0 : Fin 2) = win0_3.xsize (grid0.coords t) (1 : Fin 2) :=
  (xsize1 t).1.trans (xsize3 t).2.symm

/-! ## Which indices of the result a block holds, and that the blocks cover it -/

/-- An index (r, c) of the result lies in block t iff 2048 t ≤ c < 2048 t + min 2048 (100000 − 2048 t): every row is
    in every block. -/
theorem mem_blk3 (t : Fin cfg0.N) (i : S512x100000.Idx) :
    i ∈ ((cfg0.win 3).blk t).view.set
      ↔ t.val * 2048 ≤ (i 1).val ∧ (i 1).val < t.val * 2048 + min 2048 (100000 - t.val * 2048) := by
  show i ∈ ((View.whole main_v10).slice (win0_3.rect t)).set ↔ _
  rw [View.set_slice_whole, Rect.mem_set_unit]
  constructor
  · intro h
    have h1 := h 1
    change win0_3.index t (1 : Fin 2) * 2048 ≤ (i 1).val
      ∧ (i 1).val < win0_3.index t (1 : Fin 2) * 2048 + win0_3.xsize (grid0.coords t) (1 : Fin 2) at h1
    rw [(index3 t).2, (xsize3 t).2] at h1
    exact h1
  · intro h a
    match a with
    | ⟨0, _⟩ =>
      change win0_3.index t (0 : Fin 2) * 512 ≤ (i 0).val
        ∧ (i 0).val < win0_3.index t (0 : Fin 2) * 512 + win0_3.xsize (grid0.coords t) (0 : Fin 2)
      rw [(index3 t).1, (xsize3 t).1]
      have h0 : (i 0).val < 512 := (i 0).isLt
      clear h
      omega
    | ⟨1, _⟩ =>
      change win0_3.index t (1 : Fin 2) * 2048 ≤ (i 1).val
        ∧ (i 1).val < win0_3.index t (1 : Fin 2) * 2048 + win0_3.xsize (grid0.coords t) (1 : Fin 2)
      rw [(index3 t).2, (xsize3 t).2]
      exact h

/-- Every index (r, c) of the result lies in a block that is written back: block c / 2048. -/
theorem cover3 (i : S512x100000.Idx) :
    ∃ t : Fin cfg0.N, (cfg0.win 3).flush t = true ∧ i ∈ ((cfg0.win 3).blk t).view.set := by
  have hi : (i 1).val < 100000 := (i 1).isLt
  have ht : (i 1).val / 2048 < cfg0.N := Nat.lt_of_lt_of_eq (by omega : (i 1).val / 2048 < 49) N_0.symm
  refine ⟨⟨(i 1).val / 2048, ht⟩, flush0_3 _, ?_⟩
  rw [mem_blk3]
  show (i 1).val / 2048 * 2048 ≤ (i 1).val
    ∧ (i 1).val < (i 1).val / 2048 * 2048 + min 2048 (100000 - (i 1).val / 2048 * 2048)
  omega

/-! ## Where a block's element sits in its array -/

/-- Element y of the result's block t sits at row y₀, column 2048 t + y₁ of the result. -/
theorem emb3 (t : Fin cfg0.N) (y : ((cfg0.win 3).xblock (cfg0.grid.coords t)).Idx) :
    (((cfg0.win 3).blk t).view.emb y 0).val = (y 0).val
      ∧ (((cfg0.win 3).blk t).view.emb y 1).val = t.val * 2048 + (y 1).val := by
  refine ⟨?_, ?_⟩
  · show win0_3.index t (0 : Fin 2) * 512 + 1 * (y 0).val = (y 0).val
    rw [(index3 t).1]; omega
  · show win0_3.index t (1 : Fin 2) * 2048 + 1 * (y 1).val = t.val * 2048 + (y 1).val
    rw [(index3 t).2]; omega

/-- Element y of the weight's block t sits at row 2048 t + y₀, column y₁ of the weight. -/
theorem emb1 (t : Fin cfg0.N) (y : ((cfg0.win 1).xblock (cfg0.grid.coords t)).Idx) :
    (((cfg0.win 1).blk t).view.emb y 0).val = t.val * 2048 + (y 0).val
      ∧ (((cfg0.win 1).blk t).view.emb y 1).val = (y 1).val := by
  refine ⟨?_, ?_⟩
  · show win0_1.index t (0 : Fin 2) * 2048 + 1 * (y 0).val = t.val * 2048 + (y 0).val
    rw [(index1 t).1]; omega
  · show win0_1.index t (1 : Fin 2) * 512 + 1 * (y 1).val = (y 1).val
    rw [(index1 t).2]; omega

/-- Element y of the input's block sits at row y₀, column y₁ of the input, at every point. -/
theorem emb0 (t : Fin cfg0.N) (y : ((cfg0.win 0).xblock (cfg0.grid.coords t)).Idx) :
    (((cfg0.win 0).blk t).view.emb y 0).val = (y 0).val
      ∧ (((cfg0.win 0).blk t).view.emb y 1).val = (y 1).val := by
  refine ⟨?_, ?_⟩
  · show win0_0.index t (0 : Fin 2) * 512 + 1 * (y 0).val = (y 0).val
    rw [(index0 t).1]; omega
  · show win0_0.index t (1 : Fin 2) * 512 + 1 * (y 1).val = (y 1).val
    rw [(index0 t).2]; omega

/-- Element y of the labels' block sits at row y₀, column y₁ of the labels, at every point. -/
theorem emb2 (t : Fin cfg0.N) (y : ((cfg0.win 2).xblock (cfg0.grid.coords t)).Idx) :
    (((cfg0.win 2).blk t).view.emb y 0).val = (y 0).val
      ∧ (((cfg0.win 2).blk t).view.emb y 1).val = (y 1).val := by
  refine ⟨?_, ?_⟩
  · show win0_2.index t (0 : Fin 2) * 512 + 1 * (y 0).val = (y 0).val
    rw [(index2 t).1]; omega
  · show win0_2.index t (1 : Fin 2) * 1 + 1 * (y 1).val = (y 1).val
    rw [(index2 t).2]; omega

/-! ## The coordinates of a block's element are inside the part of the block inside the array -/

/-- An element y of the part of the result's block t inside the result has y₀ < 512 and y₁ < min 2048 (100000 − 2048 t). -/
theorem ylt3 (t : Fin cfg0.N) (y : ((cfg0.win 3).xblock (cfg0.grid.coords t)).Idx) :
    (y 0).val < 512 ∧ (y 1).val < min 2048 (100000 - t.val * 2048) :=
  ⟨Nat.lt_of_lt_of_eq (y 0).isLt (xsize3 t).1, Nat.lt_of_lt_of_eq (y 1).isLt (xsize3 t).2⟩

/-- An element y of the part of the weight's block t inside the weight has y₀ < min 2048 (100000 − 2048 t) and y₁ < 512. -/
theorem ylt1 (t : Fin cfg0.N) (y : ((cfg0.win 1).xblock (cfg0.grid.coords t)).Idx) :
    (y 0).val < min 2048 (100000 - t.val * 2048) ∧ (y 1).val < 512 :=
  ⟨Nat.lt_of_lt_of_eq (y 0).isLt (xsize1 t).1, Nat.lt_of_lt_of_eq (y 1).isLt (xsize1 t).2⟩

/-- Element y of the result's block t is the result's index (y₀, 2048 t + y₁), written by its two coordinates. -/
theorem emb3_ix2 (t : Fin cfg0.N) (y : ((cfg0.win 3).xblock (cfg0.grid.coords t)).Idx)
    (hb : (y 0).val < 512) (hc : t.val * 2048 + (y 1).val < 100000) :
    ((cfg0.win 3).blk t).view.emb y
      = (ValueIdx.ix2 (⟨(y 0).val, hb⟩ : Fin 512) (⟨t.val * 2048 + (y 1).val, hc⟩ : Fin 100000) : S512x100000.Idx) :=
  funext fun a => Fin.ext (by
    match a with
    | ⟨0, _⟩ => exact (emb3 t y).1
    | ⟨1, _⟩ => exact (emb3 t y).2)

/-- Element y of the weight's block t is the weight's index (2048 t + y₀, y₁), written by its two coordinates. -/
theorem emb1_ix2 (t : Fin cfg0.N) (y : ((cfg0.win 1).xblock (cfg0.grid.coords t)).Idx)
    (hr : t.val * 2048 + (y 0).val < 100000) (hk : (y 1).val < 512) :
    ((cfg0.win 1).blk t).view.emb y
      = (ValueIdx.ix2 (⟨t.val * 2048 + (y 0).val, hr⟩ : Fin 100000) (⟨(y 1).val, hk⟩ : Fin 512) : S100000x512.Idx) :=
  funext fun a => Fin.ext (by
    match a with
    | ⟨0, _⟩ => exact (emb1 t y).1
    | ⟨1, _⟩ => exact (emb1 t y).2)

/-! ## The column number as a machine word -/

/-- The word t · 2048 + q, computed in 32-bit machine arithmetic from the words of t and q, is the word of the natural
    number 2048 t + q; and a word equals another iff the other equals it. -/
theorem hit_eq (t q : Nat) (l : BitVec 32) :
    IntOp.cmpi .eq (IntOp.addi (IntOp.muli (BitVec.ofNat 32 t) 2048#32) (BitVec.ofNat 32 q)) l
      = IntOp.cmpi .eq l (BitVec.ofNat 32 (t * 2048 + q)) := by
  have e : IntOp.addi (IntOp.muli (BitVec.ofNat 32 t) 2048#32) (BitVec.ofNat 32 q) = BitVec.ofNat 32 (t * 2048 + q) := by
    show BitVec.ofNat 32 t * BitVec.ofNat 32 2048 + BitVec.ofNat 32 q = BitVec.ofNat 32 (t * 2048 + q)
    rw [← BitVec.ofNat_mul, ← BitVec.ofNat_add]
  rw [e]
  unfold IntOp.cmpi
  show BitVec.ofBool (BitVec.ofNat 32 (t * 2048 + q) == l) = BitVec.ofBool (l == BitVec.ofNat 32 (t * 2048 + q))
  rw [Bool.beq_comm]

end Cert.KernelIdeal.BlocksCover

end
-- ==== Proof.ValueRun.lean ====
/-
  The idealized kernel's run, read as one function of the three argument arrays.

  At grid point t the part of the result's block that is written back holds, at row y₀ and lane y₁, the kernel's entry
  of row y₀ of the input's block against row 2048 t + y₁ of the weight array, with the bit "the column number
  t · 2048 + y₁, formed in 32-bit arithmetic, equals the label of row y₀". The input's block is the whole normalized
  input, whose entry (p, k) is x[p,k] divided by the clamped norm of row p of x, and the labels' block is the label
  column, whose entry (p, 0) is label p; the machine word t · 2048 + y₁ is the word of the natural number 2048 t + y₁.
  So the written part is block t of the function whose entry (b, j) is the specification's kernel entry of row b of the
  input, row j of the weight and the bit "label b is j", the element y of block t sitting at (y₀, 2048 t + y₁). Every
  index of the result lies in a block that is written back, so the result array ends at that function; the argument
  arrays are never written.
-/
import proofs.«107556_j50869592654076_2_alg».proof.Proof.KerSpec
import proofs.«107556_j50869592654076_2_alg».proof.Proof.Gen.KernelIdeal
import proofs.«107556_j50869592654076_2_alg».proof.Proof.ValueBody
import proofs.«107556_j50869592654076_2_alg».proof.Proof.HostPrefix
import proofs.«107556_j50869592654076_2_alg».proof.Proof.BlocksCover
import Idealize.ShloMosaic.Lib.Pipeline.Value

set_option maxRecDepth 16384

noncomputable section

namespace Cert.KernelIdeal.ValueRun

open Cert.KernelIdeal Cert.KernelIdeal.Gen Cert.KernelIdeal.Body Cert.KernelIdeal.PayloadAt Cert.KernelIdeal.KerSpec
open Cert.KernelIdeal.ValueBody Cert.KernelIdeal.HostPrefix Cert.KernelIdeal.BlocksCover Cert.ArcSpec
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- Entry (p, k) of the input's block, at every point, is the input's entry divided by the clamped norm of its row. -/
theorem iblk0_apply (c : Dev nD) (t : Fin cfg0.N) (p k : Fin 512) :
    iblk m c 0 t (ix2 p k)
      = Ideal.div (m ((c : Thread nD τ).loc main_arg0) (ix2 p k)) (nrm (fun k' => m ((c : Thread nD τ).loc main_arg0) (ix2 p k'))) := by
  have e : ((cfg0.win 0).blk t).view.emb (ix2 p k) = ix2 p k := funext fun a => Fin.ext (by
    match a with
    | ⟨0, _⟩ => exact (emb0 t (ix2 p k)).1
    | ⟨1, _⟩ => exact (emb0 t (ix2 p k)).2)
  show V m c main_v8 (((cfg0.win 0).blk t).view.emb (ix2 p k)) = _
  rw [e]
  exact V_v8_apply m c p k

/-- Entry (p, 0) of the labels' block, at every point, is label p. -/
theorem iblk2_apply (c : Dev nD) (t : Fin cfg0.N) (p : Fin 512) :
    iblk m c 2 t (ix2 p (0 : Fin 1)) = m ((c : Thread nD τ).loc main_arg2) (ix1 p) := by
  have e : ((cfg0.win 2).blk t).view.emb (ix2 p (0 : Fin 1)) = ix2 p (0 : Fin 1) := funext fun a => Fin.ext (by
    match a with
    | ⟨0, _⟩ => exact (emb2 t (ix2 p (0 : Fin 1))).1
    | ⟨1, _⟩ => exact (emb2 t (ix2 p (0 : Fin 1))).2)
  show V m c main_v9 (((cfg0.win 2).blk t).view.emb (ix2 p (0 : Fin 1))) = _
  rw [e]
  exact V_v9_apply m c p

/-- What point t writes back is block t of the kernel's result function of the three argument arrays: entry y of the
    written part is the kernel's entry at row y₀ of the input against row 2048 t + y₁ of the weight, with the bit
    "label y₀ is column 2048 t + y₁". -/
theorem flushed3_eq (c : Dev nD) (t : Fin cfg0.N) :
    (dats m 0 c).flushed 3 t
      = ((cfg0.win 3).blk t).view.read (Elt Ideal)
          (kerG (m ((c : Thread nD τ).loc main_arg0)) (m ((c : Thread nD τ).loc main_arg1)) (m ((c : Thread nD τ).loc main_arg2))) := by
  show (cfg0.win 3).cut (grid0.coords t) ((dats m 0 c).after 3 t) = _
  rw [after_3]
  unfold wfill
  funext y
  have hy0 : (y 0).val < 512 := (ylt3 t y).1
  have hy1 : (y 1).val < min 2048 (100000 - t.val * 2048) := (ylt3 t y).2
  have hq : (y 1).val < 2048 := by omega
  have hJ : t.val * 2048 + (y 1).val < 100000 := by omega
  rw [cut_out m c t _ y ⟨(y 0).val, hy0⟩ ⟨(y 1).val, hq⟩ ⟨t.val * 2048 + (y 1).val, hJ⟩ rfl rfl rfl]
  show _ = kerG (m ((c : Thread nD τ).loc main_arg0)) (m ((c : Thread nD τ).loc main_arg1)) (m ((c : Thread nD τ).loc main_arg2))
      (((cfg0.win 3).blk t).view.emb y)
  rw [emb3_ix2 t y hy0 hJ]
  show _ = outK (fun k => m ((c : Thread nD τ).loc main_arg0) (ix2 (⟨(y 0).val, hy0⟩ : Fin 512) k))
      (fun k => m ((c : Thread nD τ).loc main_arg1) (ix2 (⟨t.val * 2048 + (y 1).val, hJ⟩ : Fin 100000) k))
      (hitBit (m ((c : Thread nD τ).loc main_arg2) (ix1 (⟨(y 0).val, hy0⟩ : Fin 512))) (t.val * 2048 + (y 1).val))
  rw [outK_eq_outKw]
  simp only [iblk0_apply, iblk2_apply]
  rw [coords_val, hit_eq]
  rfl

/-- The result array after the run is the kernel's result function of the three argument arrays: every entry lies in a
    block that is written back. -/
theorem final3 (c : Dev nD) :
    (dats m 0 c).arrAt 3 cfg0.N
      = kerG (m ((c : Thread nD τ).loc main_arg0)) (m ((c : Thread nD τ).loc main_arg1)) (m ((c : Thread nD τ).loc main_arg2)) :=
  (dats m 0 c).arrAt_eq_of_cover 3 _ (fun t _ => flushed3_eq m c t) cover3

/-- Every weakly fair execution of the idealized kernel program ends with the result array at the kernel's result
    function of the argument arrays, and those unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v10)
        = kerG (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun _ h c =>
    ⟨((h c).1 3).trans (final3 m c),
     ((h c).2 main_arg0 (Pipeline.mem_restRefs_of main_arg0 (by decide) (by decide))).trans (V_main_arg0 m c),
     ((h c).1 1).trans (((dats m 0 c).arrAt_in 1 rfl _).trans ((A_eq m c 1).trans (V_main_arg1 m c))),
     ((h c).2 main_arg2 (Pipeline.mem_restRefs_of main_arg2 (by decide) (by decide))).trans (V_main_arg2 m c)⟩)
    (run_main m ρ)

end Cert.KernelIdeal.ValueRun

end
-- ==== Proof.FiniteInputs.lean ====
/-
  Finiteness from the precondition.

  The precondition says that `|x| < +∞` holds at every entry of the input array and of the weight array: each
  `jnp.all` is a fold by `and` over the array of comparison bits, from the bit 1, and the two results are joined by
  `and`. A fold by `and` that ends at 1 met only 1s, so every comparison bit is 1; and an extended real `a` with
  `max a (-a) < +∞` is neither `-∞` (whose negation is `+∞`) nor `+∞`, hence a real number.
-/
import proofs.«107556_j50869592654076_2_alg».proof.Defs
import proofs.«107556_j50869592654076_2_alg».proof.Proof.Gen.Pre_finite_inputs
import Idealize.ShloMosaic.Lib.ReduceAll
import Idealize.ShloMosaic.Lib.ValueIdx
import Idealize.ShloMosaic.PureOps.Ideal

noncomputable section

namespace Cert.FiniteInputs

open Idealize.ShloMosaic Idealize.SL.Sem
open Cert.Pre_finite_inputs (S512x512 S100000x512 S512 S_)

/-- The rank-0 shape has exactly one index. -/
instance subsingleton_scalar_idx : Subsingleton S_.Idx := ⟨fun a b => funext fun d => d.elim0⟩

/-- The word `0x7F800000` denotes `+∞`. -/
theorem inf_word : Ideal.ofBits .f32 0x7F800000#32 = (⊤ : EReal) := by
  simp [Ideal.ofBits, Ideal.ieee]

/-- An extended real whose absolute value `max a (-a)` is strictly below `+∞` is a real number. -/
theorem real_of_abs_lt_top (a : EReal) (h : max a (-a) < ⊤) : ∃ r : ℝ, a = (r : EReal) := by
  induction a using EReal.rec with
  | bot => simp at h
  | top => simp at h
  | coe r => exact ⟨r, rfl⟩

/-- If the comparison bit of `|a| < +∞` is 1, then `a` is a real number. -/
theorem real_of_cmp (a : EReal)
    (h : FloatOps.cmpf (F := Ideal) (φ := .f32) .olt (FloatOps.hostAbsf (F := Ideal) (φ := .f32) a)
      (FloatOps.ofBits (F := Ideal) .f32 0x7F800000#32) = 1#1) : ∃ r : ℝ, a = (r : EReal) := by
  apply real_of_abs_lt_top
  have h' : BitVec.ofBool (decide (max a (-a) < Ideal.ofBits .f32 0x7F800000#32)) = 1#1 := h
  rw [inf_word] at h'
  by_contra hn
  simp [hn] at h'

/-- Every entry of both float arrays is a real number when the predicate evaluates to the all-ones bit. -/
theorem finite_of_fn [Cert.Pre_finite_inputs.Facts] (x : FVec Ideal S512x512 .f32) (w : FVec Ideal S100000x512 .f32)
    (lab : IVec S512 32) (h : Cert.Pre_finite_inputs.fn (F := Ideal) x w lab = fun _ => 1#1) :
    (∀ i, ∃ r : ℝ, x i = (r : EReal)) ∧ (∀ i, ∃ r : ℝ, w i = (r : EReal)) := by
  have h0 := congrFun h ValueIdx.ix0
  dsimp only [Cert.Pre_finite_inputs.fn] at h0
  obtain ⟨hx, hw⟩ := IntOp.andi_eq_one.1 h0
  refine ⟨fun i => ?_, fun i => ?_⟩
  · exact real_of_cmp (x i) (Host.reduce_andi_all _ _ _ _ _ hx i)
  · exact real_of_cmp (w i) (Host.reduce_andi_all _ _ _ _ _ hw i)

/-- Under the certificate's precondition every entry of the input array and of the weight array, on every device,
    is a real number. -/
theorem finite_of_pre [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread _ _).loc Cert.KernelIdeal.main_arg1) i = (r : EReal)) :=
  finite_of_fn _ _ _ (h c)

/-- The same, at explicit coordinates: entry `(b, k)` of the input array and entry `(n, k)` of the weight array are
    real numbers. -/
theorem finite_of_pre_ix [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ (b : Fin 512) (k : Fin 512), ∃ r : ℝ,
      m ((c.tc : Thread Cert.KernelIdeal.nD Cert.KernelIdeal.τ).loc Cert.KernelIdeal.main_arg0) (ValueIdx.ix2 b k) = (r : EReal))
    ∧ (∀ (n : Fin 100000) (k : Fin 512), ∃ r : ℝ,
      m ((c.tc : Thread Cert.KernelIdeal.nD Cert.KernelIdeal.τ).loc Cert.KernelIdeal.main_arg1) (ValueIdx.ix2 n k) = (r : EReal)) :=
  ⟨fun b k => (finite_of_pre m h c).1 (ValueIdx.ix2 b k), fun n k => (finite_of_pre m h c).2 (ValueIdx.ix2 n k)⟩

end Cert.FiniteInputs

end
-- ==== Proof.ArcMath.lean ====
/-
  The two entries of the margin head agree on finite rows.

  For finite rows the clamped norms are positive reals, so both normalized rows are real vectors of Euclidean norm at
  most one.  By the Cauchy–Schwarz inequality their inner product c is a real with |c| ≤ 1; the clamp to [−1, 1] leaves
  it unchanged, 1 − c² ≥ 0 makes the margin value a real too, and a blend of two reals with weight 0 or 1 is the
  corresponding selection.
-/
import Mathlib
import Idealize.ShloMosaic.PureOps.Ideal
import Idealize.ShloMosaic.Lib.ValueIdx
import proofs.«107556_j50869592654076_2_alg».proof.Proof.ArcSpec

noncomputable section

namespace Cert.ArcSpec

open Idealize.ShloMosaic

/-! ### The literals -/

/-- An extended real that is neither infinity is a real. -/
theorem exists_real_of_ne {x : EReal} (h1 : x ≠ ⊤) (h2 : x ≠ ⊥) : ∃ r : ℝ, x = (r : EReal) :=
  ⟨x.toReal, (EReal.coe_toReal h1 h2).symm⟩

/-- The word 0x3F800000 denotes 1. -/
theorem lit_one : lit 0x3F800000#32 = ((1 : ℝ) : EReal) := by
  simp [lit, Ideal.ofBits, Ideal.ieee, -EReal.coe_mul]; norm_num

/-- The word 0xBF800000 denotes −1. -/
theorem lit_neg_one : lit 0xBF800000#32 = ((-1 : ℝ) : EReal) := by
  simp [lit, Ideal.ofBits, Ideal.ieee, -EReal.coe_mul]; norm_num

/-- The word 0x2B8CBCCC (ε) denotes a positive real. -/
theorem lit_eps : ∃ e : ℝ, 0 < e ∧ lit 0x2B8CBCCC#32 = (e : EReal) := by
  obtain ⟨e, he⟩ := exists_real_of_ne (x := lit 0x2B8CBCCC#32)
    (by simp [lit, Ideal.ofBits, Ideal.ieee, -EReal.coe_mul]) (by simp [lit, Ideal.ofBits, Ideal.ieee, -EReal.coe_mul])
  have hpos : (0 : EReal) < lit 0x2B8CBCCC#32 := by simp [lit, Ideal.ofBits, Ideal.ieee, -EReal.coe_mul]
  rw [he] at hpos
  exact ⟨e, by exact_mod_cast hpos, he⟩

/-- The word 0xBF60A940 (the threshold −cos m) denotes a real. -/
theorem lit_th : ∃ r : ℝ, lit 0xBF60A940#32 = (r : EReal) :=
  exists_real_of_ne (by simp [lit, Ideal.ofBits, Ideal.ieee, -EReal.coe_mul])
    (by simp [lit, Ideal.ofBits, Ideal.ieee, -EReal.coe_mul])

/-- The word 0x3F60A940 (cos m) denotes a real. -/
theorem lit_cosm : ∃ r : ℝ, lit 0x3F60A940#32 = (r : EReal) :=
  exists_real_of_ne (by simp [lit, Ideal.ofBits, Ideal.ieee, -EReal.coe_mul])
    (by simp [lit, Ideal.ofBits, Ideal.ieee, -EReal.coe_mul])

/-- The word 0x3EF57744 (sin m) denotes a real. -/
theorem lit_sinm : ∃ r : ℝ, lit 0x3EF57744#32 = (r : EReal) :=
  exists_real_of_ne (by simp [lit, Ideal.ofBits, Ideal.ieee, -EReal.coe_mul])
    (by simp [lit, Ideal.ofBits, Ideal.ieee, -EReal.coe_mul])

/-- The word 0x3E757744 (m · sin m) denotes a real. -/
theorem lit_mm : ∃ r : ℝ, lit 0x3E757744#32 = (r : EReal) :=
  exists_real_of_ne (by simp [lit, Ideal.ofBits, Ideal.ieee, -EReal.coe_mul])
    (by simp [lit, Ideal.ofBits, Ideal.ieee, -EReal.coe_mul])

/-! ### Finite sums and the clamped norm -/

/-- The coercion of a finite sum of reals is the sum of the coercions. -/
theorem coe_sum (s : Finset (Fin 512)) (f : Fin 512 → ℝ) :
    ((∑ k ∈ s, f k : ℝ) : EReal) = ∑ k ∈ s, (f k : EReal) := by
  classical
  refine Finset.induction_on s (by simp) ?_
  intro i t hi ih
  rw [Finset.sum_insert hi, Finset.sum_insert hi, EReal.coe_add, ih]

/-- The coercion of a maximum of two reals is the maximum of the coercions. -/
theorem coe_max' (x y : ℝ) : ((max x y : ℝ) : EReal) = max (x : EReal) (y : EReal) :=
  EReal.coe_strictMono.monotone.map_max

/-- The coercion of a minimum of two reals is the minimum of the coercions. -/
theorem coe_min' (x y : ℝ) : ((min x y : ℝ) : EReal) = min (x : EReal) (y : EReal) :=
  EReal.coe_strictMono.monotone.map_min

/-- The sum of squares of a real row is the real sum of squares. -/
theorem sq_coe (a : Fin 512 → ℝ) : sq (fun k => (a k : EReal)) = ((∑ k, a k * a k : ℝ) : EReal) := by
  rw [coe_sum]; simp only [sq, EReal.coe_mul]

/-- A sum of squares of reals is not negative. -/
theorem sumsq_nonneg (a : Fin 512 → ℝ) : 0 ≤ ∑ k, a k * a k :=
  Finset.sum_nonneg (fun k _ => mul_self_nonneg (a k))

/-- The clamped norm of a real row is the real max (√∑a²) ε. -/
theorem nrm_coe (a : Fin 512 → ℝ) (e : ℝ) (he : lit 0x2B8CBCCC#32 = (e : EReal)) :
    nrm (fun k => (a k : EReal)) = ((max (Real.sqrt (∑ k, a k * a k)) e : ℝ) : EReal) := by
  rw [nrm, sq_coe, Ideal.sqrt_coe, if_neg (not_lt.mpr (sumsq_nonneg a)), he, coe_max']

/-! ### The cosine -/

/-- The cosine of two real rows with real nonzero clamped norms is the real inner product of the normalized rows. -/
theorem cosv_coe (a b : Fin 512 → ℝ) (na nb : ℝ) (hna : na ≠ 0) (hnb : nb ≠ 0)
    (ha : nrm (fun k => (a k : EReal)) = (na : EReal)) (hb : nrm (fun k => (b k : EReal)) = (nb : EReal)) :
    cosv (fun k => (a k : EReal)) (fun k => (b k : EReal)) = ((∑ k, (a k / na) * (b k / nb) : ℝ) : EReal) := by
  rw [coe_sum, cosv, ha, hb]
  refine Finset.sum_congr rfl (fun k _ => ?_)
  rw [Ideal.div_coe hna, Ideal.div_coe hnb, ← EReal.coe_mul, ← EReal.coe_mul, ← EReal.coe_mul,
    div_eq_mul_one_div (a k), div_eq_mul_one_div (b k)]

/-- A row divided by a positive number at least its Euclidean norm has sum of squares at most one. -/
theorem sum_sq_div_le_one (a : Fin 512 → ℝ) (n : ℝ) (hn : 0 < n) (h : Real.sqrt (∑ k, a k * a k) ≤ n) :
    ∑ k, (a k / n) ^ 2 ≤ 1 := by
  have h1 : ∑ k, a k * a k ≤ n ^ 2 := (Real.sqrt_le_iff.mp h).2
  have h2 : ∑ k, (a k / n) ^ 2 = (∑ k, a k * a k) / n ^ 2 := by
    rw [Finset.sum_div]; refine Finset.sum_congr rfl (fun k _ => ?_); rw [div_pow, pow_two (a k)]
  rw [h2, div_le_one (by positivity)]; exact h1

/-- Cauchy–Schwarz: the inner product of two rows whose sums of squares are at most one has absolute value at most one. -/
theorem abs_inner_le_one (u v : Fin 512 → ℝ) (hu : ∑ k, u k ^ 2 ≤ 1) (hv : ∑ k, v k ^ 2 ≤ 1) :
    |∑ k, u k * v k| ≤ 1 := by
  have cs := Finset.sum_mul_sq_le_sq_mul_sq Finset.univ u v
  have hu0 : 0 ≤ ∑ k, u k ^ 2 := Finset.sum_nonneg (fun k _ => sq_nonneg _)
  have hv0 : 0 ≤ ∑ k, v k ^ 2 := Finset.sum_nonneg (fun k _ => sq_nonneg _)
  have h1 : (∑ k, u k * v k) ^ 2 ≤ 1 := le_trans cs (by nlinarith [mul_nonneg hu0 (sub_nonneg.mpr hv)])
  exact (sq_le_one_iff_abs_le_one _).mp h1

/-- The cosine of two real rows is a real of absolute value at most one. -/
theorem cosv_real (a b : Fin 512 → ℝ) :
    ∃ c : ℝ, cosv (fun k => (a k : EReal)) (fun k => (b k : EReal)) = (c : EReal) ∧ |c| ≤ 1 := by
  obtain ⟨e, hepos, he⟩ := lit_eps
  have hna : 0 < max (Real.sqrt (∑ k, a k * a k)) e := lt_max_of_lt_right hepos
  have hnb : 0 < max (Real.sqrt (∑ k, b k * b k)) e := lt_max_of_lt_right hepos
  refine ⟨_, cosv_coe a b _ _ hna.ne' hnb.ne' (nrm_coe a e he) (nrm_coe b e he), ?_⟩
  exact abs_inner_le_one _ _ (sum_sq_div_le_one a _ hna (le_max_left _ _)) (sum_sq_div_le_one b _ hnb (le_max_left _ _))

/-! ### The clamp and the margin -/

/-- The clamp to [−1, 1] is the identity on a real in that interval. -/
theorem clip_coe (c : ℝ) (h1 : -1 ≤ c) (h2 : c ≤ 1) : clip (c : EReal) = (c : EReal) := by
  rw [clip, lit_one, lit_neg_one, ← coe_max', ← coe_min', max_eq_right h1, min_eq_right h2]

/-- The margin value of a real c with c² ≤ 1 is a real: the square root is taken of the real 1 − c² ≥ 0. -/
theorem phi_coe (c : ℝ) (h : c * c ≤ 1) : ∃ r : ℝ, phi (c : EReal) = (r : EReal) := by
  obtain ⟨cm, hcm⟩ := lit_cosm
  obtain ⟨sm, hsm⟩ := lit_sinm
  obtain ⟨mm, hmm⟩ := lit_mm
  have h0 : ¬ (1 - c * c) < 0 := not_lt.mpr (sub_nonneg.mpr h)
  have e1 : lit 0x3F800000#32 - (c : EReal) * (c : EReal) = ((1 - c * c : ℝ) : EReal) := by
    rw [lit_one, ← EReal.coe_mul, ← EReal.coe_sub]
  have e2 : (c : EReal) * lit 0x3F60A940#32
      - Ideal.sqrt (lit 0x3F800000#32 - (c : EReal) * (c : EReal)) * lit 0x3EF57744#32
      = ((c * cm - Real.sqrt (1 - c * c) * sm : ℝ) : EReal) := by
    rw [e1, Ideal.sqrt_coe, if_neg h0, hcm, hsm, ← EReal.coe_mul, ← EReal.coe_mul, ← EReal.coe_sub]
  have e3 : (c : EReal) - lit 0x3E757744#32 = ((c - mm : ℝ) : EReal) := by
    rw [hmm, ← EReal.coe_sub]
  unfold phi Scalar.select
  rw [e2, e3]
  split_ifs
  · exact ⟨_, rfl⟩
  · exact ⟨_, rfl⟩

/-! ### The two entries -/

/-- The one-bit word 1 reads as the real 1. -/
theorem uitofp_one : FloatOps.uitofp (F := Ideal) .f32 (1#1 : BitVec 1) = ((1 : ℝ) : EReal) := by
  show (((1#1 : BitVec 1).toNat : ℝ) : EReal) = ((1 : ℝ) : EReal)
  norm_num

/-- The one-bit word 0 reads as the real 0. -/
theorem uitofp_zero : FloatOps.uitofp (F := Ideal) .f32 (0#1 : BitVec 1) = ((0 : ℝ) : EReal) := by
  show (((0#1 : BitVec 1).toNat : ℝ) : EReal) = ((0 : ℝ) : EReal)
  norm_num

/-- On finite rows the selected entry and the blended entry are the same extended real. -/
theorem outK_eq_outR (xr wr : Fin 512 → EReal) (hx : ∀ k, ∃ r : ℝ, xr k = (r : EReal))
    (hw : ∀ k, ∃ r : ℝ, wr k = (r : EReal)) (hit : BitVec 1) :
    outK xr wr hit = outR xr wr hit := by
  choose a ha using hx
  choose b hb using hw
  obtain rfl : xr = fun k => (a k : EReal) := funext ha
  obtain rfl : wr = fun k => (b k : EReal) := funext hb
  obtain ⟨c, hc, habs⟩ := cosv_real a b
  obtain ⟨hc1, hc2⟩ := abs_le.mp habs
  have hcc : c * c ≤ 1 := by nlinarith
  obtain ⟨r, hr⟩ := phi_coe c hcc
  unfold outK outR
  rw [hc, clip_coe c hc1 hc2, hr, lit_one]
  by_cases h : hit = 1#1
  · subst h
    rw [ValueIdx.select_one, uitofp_one, ← EReal.coe_mul, ← EReal.coe_sub, ← EReal.coe_mul, ← EReal.coe_add]
    congr 2; ring
  · have h0 := ValueIdx.eq_zero_of_ne_one h
    subst h0
    rw [ValueIdx.select_zero, uitofp_zero, ← EReal.coe_mul, ← EReal.coe_sub, ← EReal.coe_mul, ← EReal.coe_add]
    congr 2; ring

end Cert.ArcSpec

end
-- ==== Proof.lean ====
/-
  The certificate's claim: the margin head as the kernel computes it and as the reference computes it.

  Each of the three programs runs to the end and leaves its three argument arrays unchanged (the three frames), and
  the idealized kernel is the kernel's own text read over the extended reals (nothing was rewritten).

  The value claim.  The idealized kernel's run ends with entry (b, j) of its result equal to
      (if row b's label is j then phi (clip c) else clip c) · s,
  and the idealized reference's run ends with entry (b, j) equal to
      (oh · phi c + (1 − oh) · c) · s,         oh = 1 if row b's label is j, else 0,
  where c is the cosine of row b of the input and row j of the weight, each divided by its Euclidean norm clamped
  below by ε.  The precondition makes every entry of the input and of the weight a real number; this is the one place
  finiteness is used: the clamped norms are then positive reals, both normalized rows have Euclidean norm at most
  one, and the Cauchy–Schwarz inequality gives |c| ≤ 1.  So the clamp is the identity, c and phi c are reals, and the
  blend with a weight that is 0 or 1 is the selection: the two results are the same function of the arguments.
-/
import proofs.«107556_j50869592654076_2_alg».proof.Defs
import proofs.«107556_j50869592654076_2_alg».proof.Proof.Gen.Kernel
import proofs.«107556_j50869592654076_2_alg».proof.Proof.Gen.Kernel.Skeleton
import proofs.«107556_j50869592654076_2_alg».proof.Proof.Gen.Kernel.Launch
import proofs.«107556_j50869592654076_2_alg».proof.Proof.Gen.Kernel.Points
import proofs.«107556_j50869592654076_2_alg».proof.Proof.Gen.Kernel.Frame
import proofs.«107556_j50869592654076_2_alg».proof.Proof.Gen.KernelIdeal
import proofs.«107556_j50869592654076_2_alg».proof.Proof.Gen.KernelIdeal.Skeleton
import proofs.«107556_j50869592654076_2_alg».proof.Proof.Gen.KernelIdeal.Launch
import proofs.«107556_j50869592654076_2_alg».proof.Proof.Gen.KernelIdeal.Points
import proofs.«107556_j50869592654076_2_alg».proof.Proof.Gen.KernelIdeal.Frame
import proofs.«107556_j50869592654076_2_alg».proof.Proof.Gen.ReferenceIdeal
import proofs.«107556_j50869592654076_2_alg».proof.Proof.Gen.Pre_finite_inputs
import proofs.«107556_j50869592654076_2_alg».proof.Proof.Gen.ReferenceIdeal.Read
import Idealize.ShloMosaic.Adequacy
import Idealize.ShloMosaic.Init
import proofs.«107556_j50869592654076_2_alg».proof.Proof.KernelBody
import proofs.«107556_j50869592654076_2_alg».proof.Proof.IdealBody
import proofs.«107556_j50869592654076_2_alg».proof.Proof.RefIsSpec
import proofs.«107556_j50869592654076_2_alg».proof.Proof.KerSpec
import proofs.«107556_j50869592654076_2_alg».proof.Proof.ValueRun
import proofs.«107556_j50869592654076_2_alg».proof.Proof.FiniteInputs
import proofs.«107556_j50869592654076_2_alg».proof.Proof.ArcMath

noncomputable section

namespace Cert.Proof

open Idealize.ShloMosaic Idealize.SL.Sem

/-- The kernel runs to the end and leaves its three argument arrays unchanged. -/
theorem frame_k : Cert.frame_Kernel := fun m ρ _ => Cert.Kernel.Body.frame (F := Bits) m ρ

/-- The idealized kernel runs to the end and leaves its three argument arrays unchanged. -/
theorem frame_ki : Cert.frame_KernelIdeal := fun m ρ _ => Cert.KernelIdeal.Body.frame (F := Ideal) m ρ

/-- On arrays whose input and weight entries are all real numbers, the kernel's result function and the reference's
    are equal: entry by entry the selected value and the blended value agree, the two "row b's label is j" bits being
    the same comparison. -/
theorem kerG_eq_refG (x : FVec Ideal Cert.KernelIdeal.S512x512 .f32) (w : FVec Ideal Cert.KernelIdeal.S100000x512 .f32)
    (lab : IVec Cert.KernelIdeal.S512 32)
    (hx : ∀ i, ∃ r : ℝ, x i = (r : EReal)) (hw : ∀ i, ∃ r : ℝ, w i = (r : EReal)) :
    Cert.KernelIdeal.KerSpec.kerG x w lab = Cert.ReferenceIdeal.RefValue.refG x w lab := by
  funext i
  exact Cert.ArcSpec.outK_eq_outR _ _ (fun k => hx _) (fun k => hw _) _

/-- From argument arrays that agree, with every input and weight entry a real number, the idealized kernel's run and
    the idealized reference's run end with the same result array, and with the arguments unchanged. -/
theorem algebraic : Cert.algebraic_KernelIdeal_ReferenceIdeal := by
  intro m ρ m' ρ' hpre hagree
  refine ⟨fun c => Cert.KernelIdeal.KerSpec.kerG
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.ValueRun.kernel_run m ρ, ?_⟩
  refine (θ_run (Cert.ReferenceIdeal.defs (F := Ideal)) _ _).mono (fun _ h c => ⟨(h c).1.trans ?_, (h c).2⟩)
    (Cert.ReferenceIdeal.RefValue.ref_run m' ρ')
  rw [(hagree c).1, (hagree c).2.1, (hagree c).2.2]
  exact (kerG_eq_refG _ _ _ (Cert.FiniteInputs.finite_of_pre m hpre c).1 (Cert.FiniteInputs.finite_of_pre m hpre c).2).symm

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, trivial, algebraic⟩

end Cert.Proof

end
